-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S16x40 .f32) (main_arg7 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg6
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x512 .f32) (main_arg1 : IVec S3200000 32) (main_arg2 : IVec S3200000 32) (main_arg3 : FVec F S3200000 .f32) (main_arg4 : FVec F S512x16 .f32) (main_arg5 : FVec F S16 .f32) (main_arg6 : FVec F S16x40 .f32) (main_arg7 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg4
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_v13 main_v16
-- ==== Kernel.lean ====
abbrev S100000x512 : Shape := ⟨2, ![100000, 512]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S2000x512 : Shape := ⟨2, ![2000, 512]⟩
abbrev S2000x16 : Shape := ⟨2, ![2000, 16]⟩
abbrev S_ : Shape := ⟨0, ![]⟩
abbrev S100000 : Shape := ⟨1, ![100000]⟩
abbrev S3200000x1 : Shape := ⟨2, ![3200000, 1]⟩
abbrev S3200000x16 : Shape := ⟨2, ![3200000, 16]⟩
abbrev S100000x1 : Shape := ⟨2, ![100000, 1]⟩
abbrev S1x16 : Shape := ⟨2, ![1, 16]⟩
abbrev S2000x1 : Shape := ⟨2, ![2000, 1]⟩
abbrev S100000x40 : Shape := ⟨2, ![100000, 40]⟩
abbrev S2000x40 : Shape := ⟨2, ![2000, 40]⟩
abbrev S3200000x40 : Shape := ⟨2, ![3200000, 40]⟩
abbrev S1x40 : Shape := ⟨2, ![1, 40]⟩
abbrev S2000 : Shape := ⟨1, ![2000]⟩

abbrev nBuf : Space → Nat
  | .hbm => 121
  | .vmem => 32
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S512x16, .f32⟩
  | .hbm, ⟨5, _⟩ => ⟨S16, .f32⟩
  | .hbm, ⟨6, _⟩ => ⟨S16x40, .f32⟩
  | .hbm, ⟨7, _⟩ => ⟨S40, .f32⟩
  | .hbm, ⟨8, _⟩ => ⟨S100000x16, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000, .f32⟩
  | .hbm, ⟨33, _⟩ => ⟨S3200000, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000, .f32⟩
  | .hbm, ⟨43, _⟩ => ⟨S3200000, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x16, .f32⟩
  | .hbm, ⟨53, _⟩ => ⟨S3200000x1, .f32⟩
  | .hbm, ⟨54, _⟩ => ⟨S3200000x16, .f32⟩
  | .hbm, ⟨55, _⟩ => ⟨S3200000x16, .f32⟩
  | .hbm, ⟨56, _⟩ => ⟨S_, .f32⟩
  | .hbm, ⟨57, _⟩ => ⟨S100000x16, .f32⟩
  | .hbm, ⟨58, _⟩ => ⟨S3200000x1, .i32⟩
  | .hbm, ⟨59, _⟩ => ⟨S100000x16, .f32⟩
  | .hbm, ⟨60, _⟩ => ⟨S100000, .f32⟩
  | .hbm, ⟨61, _⟩ => ⟨S100000x1, .f32⟩
  | .hbm, ⟨62, _⟩ => ⟨S1x16, .f32⟩
  | .hbm, ⟨63, _⟩ => ⟨S100000x16, .f32⟩
  | .hbm, ⟨64, _⟩ => ⟨S100000x40, .f32⟩
  | .hbm, ⟨65, _⟩ => ⟨S_, .f32⟩
  | .hbm, ⟨66, _⟩ => ⟨S100000, .f32⟩
  | .hbm, ⟨67, _⟩ => ⟨S3200000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .i1⟩
  | .hbm, ⟨75, _⟩ => ⟨S100000, .f32⟩
  | .hbm, ⟨76, _⟩ => ⟨S_, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S_, .i32⟩
  | .hbm, ⟨81, _⟩ => ⟨S3200000, .i32⟩
  | .hbm, ⟨82, _⟩ => ⟨S3200000, .i1⟩
  | .hbm, ⟨83, _⟩ => ⟨S_, .i32⟩
  | .hbm, ⟨84, _⟩ => ⟨S3200000, .i32⟩
  | .hbm, ⟨85, _⟩ => ⟨S3200000, .i32⟩
  | .hbm, ⟨86, _⟩ => ⟨S3200000, .i32⟩
  | .hbm, ⟨87, _⟩ => ⟨S3200000x1, .i32⟩
  | .hbm, ⟨88, _⟩ => ⟨S3200000, .f32⟩
  | .hbm, ⟨89, _⟩ => ⟨S3200000, .f32⟩
  | .hbm, ⟨90, _⟩ => ⟨S_, .i32⟩
  | .hbm, ⟨91, _⟩ => ⟨S3200000, .i32⟩
  | .hbm, ⟨92, _⟩ => ⟨S3200000, .i1⟩
  | .hbm, ⟨93, _⟩ => ⟨S_, .i32⟩
  | .hbm, ⟨94, _⟩ => ⟨S3200000, .i32⟩
  | .hbm, ⟨95, _⟩ => ⟨S3200000, .i32⟩
  | .hbm, ⟨96, _⟩ => ⟨S3200000, .i32⟩
  | .hbm, ⟨97, _⟩ => ⟨S3200000x1, .i32⟩
  | .hbm, ⟨98, _⟩ => ⟨S3200000, .f32⟩
  | .hbm, ⟨99, _⟩ => ⟨S3200000, .f32⟩
  | .hbm, ⟨100, _⟩ => ⟨S_, .i32⟩
  | .hbm, ⟨101, _⟩ => ⟨S3200000, .i32⟩
  | .hbm, ⟨102, _⟩ => ⟨S3200000, .i1⟩
  | .hbm, ⟨103, _⟩ => ⟨S_, .i32⟩
  | .hbm, ⟨104, _⟩ => ⟨S3200000, .i32⟩
  | .hbm, ⟨105, _⟩ => ⟨S3200000, .i32⟩
  | .hbm, ⟨106, _⟩ => ⟨S3200000, .i32⟩
  | .hbm, ⟨107, _⟩ => ⟨S3200000x1, .i32⟩
  | .hbm, ⟨108, _⟩ => ⟨S3200000x40, .f32⟩
  | .hbm, ⟨109, _⟩ => ⟨S3200000x1, .f32⟩
  | .hbm, ⟨110, _⟩ => ⟨S3200000x40, .f32⟩
  | .hbm, ⟨111, _⟩ => ⟨S3200000x40, .f32⟩
  | .hbm, ⟨112, _⟩ => ⟨S_, .f32⟩
  | .hbm, ⟨113, _⟩ => ⟨S100000x40, .f32⟩
  | .hbm, ⟨114, _⟩ => ⟨S3200000x1, .i32⟩
  | .hbm, ⟨115, _⟩ => ⟨S100000x40, .f32⟩
  | .hbm, ⟨116, _⟩ => ⟨S100000, .f32⟩
  | .hbm, ⟨117, _⟩ => ⟨S100000x1, .f32⟩
  | .hbm, ⟨118, _⟩ => ⟨S1x40, .f32⟩
  | .hbm, ⟨119, _⟩ => ⟨S100000x40, .f32⟩
  | .hbm, ⟨120, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S2000x16, .f32⟩
  | .local _ .vmem, ⟨8, _⟩ => ⟨S2000x16, .f32⟩
  | .local _ .vmem, ⟨9, _⟩ => ⟨S2000x1, .f32⟩
  | .local _ .vmem, ⟨10, _⟩ => ⟨S2000x1, .f32⟩
  | .local _ .vmem, ⟨11, _⟩ => ⟨S1x16, .f32⟩
  | .local _ .vmem, ⟨12, _⟩ => ⟨S2000x16, .f32⟩
  | .local _ .vmem, ⟨13, _⟩ => ⟨S2000x16, .f32⟩
  | .local _ .vmem, ⟨14, _⟩ => ⟨S2000x16, .f32⟩
  | .local _ .vmem, ⟨15, _⟩ => ⟨S2000x16, .f32⟩
  | .local _ .vmem, ⟨16, _⟩ => ⟨S16x40, .f32⟩
  | .local _ .vmem, ⟨17, _⟩ => ⟨S2000x40, .f32⟩
  | .local _ .vmem, ⟨18, _⟩ => ⟨S2000x40, .f32⟩
  | .local _ .vmem, ⟨19, _⟩ => ⟨S2000x40, .f32⟩
  | .local _ .vmem, ⟨20, _⟩ => ⟨S2000x40, .f32⟩
  | .local _ .vmem, ⟨21, _⟩ => ⟨S2000x40, .f32⟩
  | .local _ .vmem, ⟨22, _⟩ => ⟨S2000x40, .f32⟩
  | .local _ .vmem, ⟨23, _⟩ => ⟨S2000x1, .f32⟩
  | .local _ .vmem, ⟨24, _⟩ => ⟨S2000x1, .f32⟩
  | .local _ .vmem, ⟨25, _⟩ => ⟨S1x40, .f32⟩
  | .local _ .vmem, ⟨26, _⟩ => ⟨S2000x40, .f32⟩
  | .local _ .vmem, ⟨27, _⟩ => ⟨S2000x40, .f32⟩
  | .local _ .vmem, ⟨28, _⟩ => ⟨S2000x40, .f32⟩
  | .local _ .vmem, ⟨29, _⟩ => ⟨S2000x40, .f32⟩
  | .local _ .vmem, ⟨30, _⟩ => ⟨S2000x40, .f32⟩
  | .local _ .vmem, ⟨31, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_call1_v0 : Ref sig .tc := ⟨.hbm, 77, rfl⟩
abbrev main_call1_v1 : Ref sig .tc := ⟨.hbm, 78, rfl⟩
abbrev main_v52 : Ref sig .tc := ⟨.hbm, 79, rfl⟩
abbrev main_c_13 : Ref sig .tc := ⟨.hbm, 80, rfl⟩
abbrev main_v53 : Ref sig .tc := ⟨.hbm, 81, rfl⟩
abbrev main_v54 : Ref sig .tc := ⟨.hbm, 82, rfl⟩
abbrev main_c_14 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_17 : Ref sig .tc := ⟨.hbm, 100, rfl⟩
abbrev main_v69 : Ref sig .tc := ⟨.hbm, 101, rfl⟩
abbrev main_v70 : Ref sig .tc := ⟨.hbm, 102, rfl⟩
abbrev main_c_18 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_19 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x40 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  inb_S2000x512_S2000x512_0_0 : ∀ a, (![0, 0] : Fin 2 → Nat) a + S2000x512.size a ≤ S2000x512.size a
  h_S2000x512 : 0 < S2000x512.numel
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S100000_S100000x1 : S100000.ShapeCasts S100000x1
  shapeCasts_S16_S1x16 : S16.ShapeCasts S1x16
  shapeCasts_S2000x16_S2000x16 : S2000x16.ShapeCasts S2000x16
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x16 : S2000x1.Broadcasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x40_S16x40_0_0 : ∀ a, (![0, 0] : Fin 2 → Nat) a + S16x40.size a ≤ S16x40.size a
  h_S16x40 : 0 < S16x40.numel
  inb_S2000x40_S2000x40_0_0 : ∀ a, (![0, 0] : Fin 2 → Nat) a + S2000x40.size a ≤ S2000x40.size a
  h_S2000x40 : 0 < S2000x40.numel
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  broadcasts_S2000x1_S2000x40 : S2000x1.Broadcasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  dot_S2000x512_S512x16_S2000x16_1_0_0_1_n_n_wf : DotDims.WF S2000x512 S512x16 S2000x16 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S2000x16_S16x40_S2000x40_1_0_0_1_n_n_wf : DotDims.WF S2000x16 S16x40 S2000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x16.size a ≤ S100000x16.size a
  hwx1_1 : ∀ i : grid1.Coords, EltTy.bits .f32 = 32 ∨ (Rect.block (s := S100000x16) S2000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x16.size a ≤ S100000x16.size a
  hwx1_4 : ∀ i : grid1.Coords, EltTy.bits .f32 = 32 ∨ (Rect.block (s := S100000x16) S2000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S100000x40.size a
  hwx3_0 : ∀ i : grid3.Coords, EltTy.bits .f32 = 32 ∨ (Rect.block (s := S100000x40) S2000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x40.size a ≤ S100000x40.size a
  hwx3_1 : ∀ i : grid3.Coords, EltTy.bits .f32 = 32 ∨ (Rect.block (s := S100000x40) S2000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x40.size a ≤ S100000x40.size a
  hwx3_4 : ∀ i : grid3.Coords, EltTy.bits .f32 = 32 ∨ (Rect.block (s := S100000x40) S2000x40.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x40.size a ≤ S100000x40.size a
  hwx4_0 : ∀ i : grid4.Coords, EltTy.bits .f32 = 32 ∨ (Rect.block (s := S100000x40) S2000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x40.size a ≤ S100000x40.size a
  hwx4_1 : ∀ i : grid4.Coords, EltTy.bits .f32 = 32 ∨ (Rect.block (s := S100000x40) S2000x40.size (cc4_transform_1 i) (hinb4_1 i)).WholeWords (EltTy.packing .f32)

variable [Facts₀]

def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S2000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v81) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S2000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v83) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v84) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v85) S2000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v85) S2000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S2000x40.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S100000x512 : Shape := ⟨2, ![100000, 512]⟩
abbrev S3200000 : Shape := ⟨1, ![3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S_ : Shape := ⟨0, ![]⟩
abbrev S100000 : Shape := ⟨1, ![100000]⟩
abbrev S3200000x1 : Shape := ⟨2, ![3200000, 1]⟩
abbrev S3200000x16 : Shape := ⟨2, ![3200000, 16]⟩
abbrev S100000x1 : Shape := ⟨2, ![100000, 1]⟩
abbrev S1x16 : Shape := ⟨2, ![1, 16]⟩
abbrev S100000x40 : Shape := ⟨2, ![100000, 40]⟩
abbrev S3200000x40 : Shape := ⟨2, ![3200000, 40]⟩
abbrev S1x40 : Shape := ⟨2, ![1, 40]⟩

abbrev nBuf : Space → Nat
  | .hbm => 146
  | .vmem => 0
  | .smem => 0
  | _ => 0

abbrev hbmTy0_0 (i : Nat) : BufTy := match i % 128 with
  | 0 => ⟨S100000x512, .f32⟩
  | 1 => ⟨S3200000, .i32⟩
  | 2 => ⟨S3200000, .i32⟩
  | 3 => ⟨S3200000, .f32⟩
  | 4 => ⟨S512x16, .f32⟩
  | 5 => ⟨S16, .f32⟩
  | 6 => ⟨S16x40, .f32⟩
  | 7 => ⟨S40, .f32⟩
  | 8 => ⟨S100000x16, .f32⟩
  | 9 => ⟨S_, .f32⟩
  | 10 => ⟨S100000, .f32⟩
  | 11 => ⟨S3200000x1, .i32⟩
  | 12 => ⟨S100000, .f32⟩
  | 13 => ⟨S_, .f32⟩
  | 14 => ⟨S100000, .f32⟩
  | 15 => ⟨S100000, .f32⟩
  | 16 => ⟨S_, .f32⟩
  | 17 => ⟨S100000, .f32⟩
  | 18 => ⟨S100000, .i1⟩
  | 19 => ⟨S100000, .f32⟩
  | 20 => ⟨S_, .f32⟩
  | 21 => ⟨S_, .f32⟩
  | 22 => ⟨S100000, .f32⟩
  | 23 => ⟨S100000, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000, .f32⟩
  | 33 => ⟨S3200000, .f32⟩
  | 34 => ⟨S_, .i32⟩
  | 35 => ⟨S3200000, .i32⟩
  | 36 => ⟨S3200000, .i1⟩
  | 37 => ⟨S_, .i32⟩
  | 38 => ⟨S3200000, .i32⟩
  | 39 => ⟨S3200000, .i32⟩
  | 40 => ⟨S3200000, .i32⟩
  | 41 => ⟨S3200000x1, .i32⟩
  | 42 => ⟨S3200000, .f32⟩
  | 43 => ⟨S3200000, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000x16, .f32⟩
  | 53 => ⟨S3200000x1, .f32⟩
  | 54 => ⟨S3200000x16, .f32⟩
  | 55 => ⟨S3200000x16, .f32⟩
  | 56 => ⟨S_, .f32⟩
  | 57 => ⟨S100000x16, .f32⟩
  | 58 => ⟨S3200000x1, .i32⟩
  | 59 => ⟨S100000x16, .f32⟩
  | 60 => ⟨S100000, .f32⟩
  | 61 => ⟨S100000x1, .f32⟩
  | 62 => ⟨S100000x16, .f32⟩
  | 63 => ⟨S100000x16, .f32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x40, .f32⟩
  | 72 => ⟨S_, .f32⟩
  | 73 => ⟨S100000, .f32⟩
  | 74 => ⟨S3200000x1, .i32⟩
  | 75 => ⟨S100000, .f32⟩
  | 76 => ⟨S_, .f32⟩
  | 77 => ⟨S100000, .f32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S3200000, .i32⟩
  | 89 => ⟨S3200000, .i1⟩
  | 90 => ⟨S_, .i32⟩
  | 91 => ⟨S3200000, .i32⟩
  | 92 => ⟨S3200000, .i32⟩
  | 93 => ⟨S3200000, .i32⟩
  | 94 => ⟨S3200000x1, .i32⟩
  | 95 => ⟨S3200000, .f32⟩
  | 96 => ⟨S3200000, .f32⟩
  | 97 => ⟨S_, .i32⟩
  | 98 => ⟨S3200000, .i32⟩
  | 99 => ⟨S3200000, .i1⟩
  | 100 => ⟨S_, .i32⟩
  | 101 => ⟨S3200000, .i32⟩
  | 102 => ⟨S3200000, .i32⟩
  | 103 => ⟨S3200000, .i32⟩
  | 104 => ⟨S3200000x1, .i32⟩
  | 105 => ⟨S3200000, .f32⟩
  | 106 => ⟨S3200000, .f32⟩
  | 107 => ⟨S_, .i32⟩
  | 108 => ⟨S3200000, .i32⟩
  | 109 => ⟨S3200000, .i1⟩
  | 110 => ⟨S_, .i32⟩
  | 111 => ⟨S3200000, .i32⟩
  | 112 => ⟨S3200000, .i32⟩
  | 113 => ⟨S3200000, .i32⟩
  | 114 => ⟨S3200000x1, .i32⟩
  | 115 => ⟨S3200000x40, .f32⟩
  | 116 => ⟨S3200000x1, .f32⟩
  | 117 => ⟨S3200000x40, .f32⟩
  | 118 => ⟨S3200000x40, .f32⟩
  | 119 => ⟨S_, .f32⟩
  | 120 => ⟨S100000x40, .f32⟩
  | 121 => ⟨S3200000x1, .i32⟩
  | 122 => ⟨S100000x40, .f32⟩
  | 123 => ⟨S100000, .f32⟩
  | 124 => ⟨S100000x1, .f32⟩
  | 125 => ⟨S100000x40, .f32⟩
  | 126 => ⟨S100000x40, .f32⟩
  | 127 => ⟨S100000x40, .f32⟩
  | _ => ⟨S100000x512, .f32⟩

abbrev hbmTy0_1 (i : Nat) : BufTy := match i % 128 with
  | 0 => ⟨S1x40, .f32⟩
  | 1 => ⟨S100000x40, .f32⟩
  | 2 => ⟨S100000x40, .f32⟩
  | 3 => ⟨S_, .f32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x40, .f32⟩
  | 10 => ⟨S100000x40, .f32⟩
  | 11 => ⟨S100000x40, .f32⟩
  | 12 => ⟨S_, .f32⟩
  | 13 => ⟨S100000, .f32⟩
  | 14 => ⟨S100000x1, .f32⟩
  | 15 => ⟨S100000x1, .f32⟩
  | 16 => ⟨S100000x40, .f32⟩
  | 17 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v57 : Ref sig .tc := ⟨.hbm, 86, rfl⟩
abbrev main_c_13 : Ref sig .tc := ⟨.hbm, 87, rfl⟩
abbrev main_v58 : Ref sig .tc := ⟨.hbm, 88, rfl⟩
abbrev main_v59 : Ref sig .tc := ⟨.hbm, 89, rfl⟩
abbrev main_c_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_17 : Ref sig .tc := ⟨.hbm, 107, rfl⟩
abbrev main_v74 : Ref sig .tc := ⟨.hbm, 108, rfl⟩
abbrev main_v75 : Ref sig .tc := ⟨.hbm, 109, rfl⟩
abbrev main_c_18 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_19 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_call3_cst_0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_v6 : Ref sig .tc := ⟨.hbm, 139, rfl⟩
abbrev main_call3_cst_1 : Ref sig .tc := ⟨.hbm, 140, rfl⟩
abbrev main_call3_v7 : Ref sig .tc := ⟨.hbm, 141, rfl⟩
abbrev main_call3_v8 : Ref sig .tc := ⟨.hbm, 142, rfl⟩
abbrev main_call3_v9 : Ref sig .tc := ⟨.hbm, 143, rfl⟩
abbrev main_call3_v10 : Ref sig .tc := ⟨.hbm, 144, rfl⟩
abbrev main_v95 : Ref sig .tc := ⟨.hbm, 145, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x40_0_1 : S3200000x1.BroadcastsInDim S3200000x40 (![0, 1] : Fin 2 → Fin S3200000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  dot_S100000x512_S512x16_S100000x16_1_0_0_1_n_n_wf : DotDims.WF S100000x512 S512x16 S100000x16 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x40_S100000x40_1_0_0_1_n_n_wf : DotDims.WF S100000x16 S16x40 S100000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.RunResult.lean ====
/-
  The idealized kernel's run with its result named.  @main is eleven segments: five kernel launches among
  stretches of host operations.  At the end of the run every unscoped buffer holds the last boundary's
  contents, so the result buffer holds what the fifth launch's write-backs leave in it, and each argument
  buffer what it held at the start.
-/
import proofs.«122372_j50457275793466_1_alg».proof.Proof.Gen.KernelIdeal.Frame

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents and the eight argument buffers end as they started. -/
theorem run_result : θ_run defs (onTc (τ := τ) (main (F := F))) ⟨m, fun _ => 0, ρ⟩ (fun r => ∀ c : Dev nD,
      r.2.mem ((c.tc : Thread nD τ).loc main_v86) = W11 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v86 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Whole

end
-- ==== Proof.ProjectIn.lean ====
/-
  The first matrix-product launch: entry (i, j) of the result is the sum over k of x[i, k] · w[k, j].
  The launch walks the rows of x in fifty bands of two thousand; band t of the result is the product of band t
  of x with the whole of w, accumulated into zeros, and the fifty bands tile the result.
-/
import proofs.«122372_j50457275793466_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.ProjectIn

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The product as one function of the two operand arrays, entry by entry. -/
def G (x : S100000x512.Idx → EReal) (w : S512x16.Idx → EReal) : S100000x16.Idx → EReal :=
  fun i => ∑ k : Fin 512, x (ix2 (i 0) k) * w (ix2 k (i 1))

theorem zeros2 : (![0, 0] : Fin 2 → Nat) = fun _ => 0 := funext fun a => by fin_cases a <;> rfl

/-- The left operand is read at the output's row, -/
theorem lhs_row (i : S2000x16.Idx) (r : dot_S2000x512_S512x16_S2000x16_1_0_0_1_n_n.contr.Idx) : (dot_S2000x512_S512x16_S2000x16_1_0_0_1_n_n.lhsIdx i r 0).val = (i 0).val := by
  unfold DotDims.lhsIdx
  rw [dif_neg (show ¬(0 : Fin S2000x512.rank) ∈ dot_S2000x512_S512x16_S2000x16_1_0_0_1_n_n.lhsBatch by decide), dif_pos (show (0 : Fin S2000x512.rank) ∈ dot_S2000x512_S512x16_S2000x16_1_0_0_1_n_n.lhsNonContracting by decide)]
  rfl
/-- and the right operand at the output's column. -/
theorem rhs_col (i : S2000x16.Idx) (r : dot_S2000x512_S512x16_S2000x16_1_0_0_1_n_n.contr.Idx) : (dot_S2000x512_S512x16_S2000x16_1_0_0_1_n_n.rhsIdx i r 1).val = (i 1).val := by
  unfold DotDims.rhsIdx
  rw [dif_neg (show ¬(1 : Fin S512x16.rank) ∈ dot_S2000x512_S512x16_S2000x16_1_0_0_1_n_n.rhsBatch by decide), dif_pos (show (1 : Fin S512x16.rank) ∈ dot_S2000x512_S512x16_S2000x16_1_0_0_1_n_n.rhsNonContracting by decide)]
  rfl

/-- One band's product at row p, column q of the band: the sum over the contracted axis. -/
theorem band_apply (x0 : Vec Ideal S2000x512 .f32) (x1 : Vec Ideal S512x16 .f32) (p : Fin 2000) (q : Fin 16) :
    k0_pay1 (F := Ideal) x0 x1 (ix2 p q) = ∑ k : Fin 512, x0 (ix2 p k) * x1 (ix2 k q) := by
  unfold k0_pay1
  try simp only [shapeCast_self]
  show matmul (F := Ideal) (φ₁ := .f32) (φ₂ := .f32) dot_S2000x512_S512x16_S2000x16_1_0_0_1_n_n none x0 x1 (constant S2000x16 .f32 0x00000000#32) (ix2 p q) = _
  refine (Ideal.matmul_constant_zero_apply dot_S2000x512_S512x16_S2000x16_1_0_0_1_n_n none x0 x1 (ix2 p q)).trans ?_
  rw [← Equiv.sum_comp (contrEquiv1 dot_S2000x512_S512x16_S2000x16_1_0_0_1_n_n 512 rfl rfl).symm]
  refine Finset.sum_congr rfl fun k _ => ?_
  have hk := contrEquiv1_symm_val dot_S2000x512_S512x16_S2000x16_1_0_0_1_n_n 512 rfl rfl k
  have el : dot_S2000x512_S512x16_S2000x16_1_0_0_1_n_n.lhsIdx (ix2 p q) ((contrEquiv1 dot_S2000x512_S512x16_S2000x16_1_0_0_1_n_n 512 rfl rfl).symm k) = ix2 p k := funext fun a => Fin.ext (by
    match a with
    | ⟨0, _⟩ => exact lhs_row _ _
    | ⟨1, _⟩ => exact (dot_S2000x512_S512x16_S2000x16_1_0_0_1_n_n.lhsIdx_val_of_single rfl _ _).trans hk)
  have er : dot_S2000x512_S512x16_S2000x16_1_0_0_1_n_n.rhsIdx (ix2 p q) ((contrEquiv1 dot_S2000x512_S512x16_S2000x16_1_0_0_1_n_n 512 rfl rfl).symm k) = ix2 k q := funext fun a => Fin.ext (by
    match a with
    | ⟨0, _⟩ => exact (dot_S2000x512_S512x16_S2000x16_1_0_0_1_n_n.rhsIdx_val_of_single rfl _ _).trans hk
    | ⟨1, _⟩ => exact rhs_col _ _)
  rw [el, er]

/-- Where each window's block sits at point t: x and the result at band t, w at its only block. -/
theorem band_index : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 49 :=
  (by decide +kernel : ∀ t : Fin grid0.N, _)

/-- Every band is some point's. -/
theorem band_onto : ∀ r : Fin 50, ∃ t : Fin cfg0.N, win0_2.index t = ![r.val, 0] :=
  (by decide +kernel : ∀ r : Fin 50, ∃ t : Fin grid0.N, win0_2.index t = ![r.val, 0])

/-- The same sum at equal places. -/
theorem reindex (X : S100000x512.Idx → EReal) (Wt : S512x16.Idx → EReal)
    {a a' : Fin 512 → S100000x512.Idx} {b b' : Fin 512 → S512x16.Idx} (ha : ∀ k, a k = a' k) (hb : ∀ k, b k = b' k) :
    ∑ k : Fin 512, X (a k) * Wt (b k) = ∑ k : Fin 512, X (a' k) * Wt (b' k) :=
  Finset.sum_congr rfl fun k _ => by rw [ha k, hb k]

section
variable (V : (c : Dev nD) → (b : Ref sig .tc) → Buf (Elt Ideal) ((c : Thread nD τ).loc b))

/-- What point t writes back is band t of G of the arrays as the launch finds them. -/
theorem flushed_eq (c : Dev nD) (t : Fin cfg0.N) :
    (dat0 (F := Ideal) V c).flushed 2 t
      = ((cfg0.win 2).blk t).view.read (Elt Ideal) (G (V c main_arg0) (V c main_arg4)) := by
  show (cfg0.win 2).cut (grid0.coords t) ((dat0 (F := Ideal) V c).after 2 t) = _
  rw [after0_2]
  unfold out0_2
  rw [View.canon_unit_zero zeros2]
  simp only [View.ld_unit_zero (S := S2000x512) zeros2, View.ld_unit_zero (S := S512x16) zeros2]
  obtain ⟨e00, e01, e10, e11, e21, e20⟩ := band_index t
  funext j
  obtain ⟨p, q, rfl⟩ : ∃ (p : Fin 2000) (q : Fin 16), j = ix2 p q := ⟨j 0, j 1, eq_ix2 j⟩
  refine (band_apply (iblk0 V c 0 t) (iblk0 V c 1 t) p q).trans ?_
  have hp : p.val < 2000 := p.isLt
  have hq : q.val < 16 := q.isLt
  have h0 : ∀ k : Fin 512, ((cfg0.win 0).blk t).view.emb (ix2 p k)
      = ix2 ((((cfg0.win 2).blk t).view.emb (ix2 p q)) 0) k := by
    intro k
    have hk : k.val < 512 := k.isLt
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have h1 : ∀ k : Fin 512, ((cfg0.win 1).blk t).view.emb (ix2 k q)
      = ix2 k ((((cfg0.win 2).blk t).view.emb (ix2 p q)) 1) := by
    intro k
    have hk : k.val < 512 := k.isLt
    funext a; apply Fin.ext
    match a with
    | ⟨0, _⟩ => show win0_1.index t (0 : Fin 2) * 512 + 1 * k.val = k.val; omega
    | ⟨1, _⟩ => show win0_1.index t (1 : Fin 2) * 16 + 1 * q.val = win0_2.index t (1 : Fin 2) * 16 + 1 * q.val; omega
  exact reindex (V c main_arg0) (V c main_arg4) h0 h1

/-- An entry of the result array is in point t's band iff each coordinate is in the band's range on its axis. -/
theorem mem_band (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v0).slice (win0_2.rect t)).set ↔ _
  rw [View.set_slice_whole, Rect.mem_set_unit]
  exact Iff.rfl

/-- The bands tile the array: row r lies in band r / 2000. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := band_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_band]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 16 ≤ (i 1).val ∧ (i 1).val < win0_2.index t (1 : Fin 2) * 16 + 16; omega

/-- The result array after the launch is G of the operand arrays as the launch found them. -/
theorem final (c : Dev nD) :
    (dat0 (F := Ideal) V c).arrAt 2 cfg0.N = G (V c main_arg0) (V c main_arg4) :=
  (dat0 (F := Ideal) V c).arrAt_eq_of_cover 2 _ (fun t _ => flushed_eq V c t) (covered)

end

end Cert.KernelIdeal.ProjectIn

end
-- ==== Proof.CombineRelu.lean ====
/-
  The first combining launch: row i, column j of the result is
      agg[i, j] + h[i, j] · d[i, 0] + b[0, j], clamped below at zero,
  where agg is the aggregated messages, h the projected features, d the squared inverse degree as a column
  and b the bias as a row.  The launch walks the rows in fifty bands of two thousand; band t of the result
  is computed from band t of agg, h and d and from the whole row b, and the fifty bands tile the array.
-/
import proofs.«122372_j50457275793466_1_alg».proof.Proof.Gen.KernelIdeal.Frame
import Idealize.ShloMosaic.Lib.Pipeline.Value
import Idealize.ShloMosaic.Lib.ValueIdx

set_option maxRecDepth 16384

noncomputable section

namespace Cert.KernelIdeal.CombineRelu

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The result array as one function of the four operand arrays, entry by entry. -/
def G (agg h : S100000x16.Idx → EReal) (d : S100000x1.Idx → EReal) (b : S1x16.Idx → EReal) : S100000x16.Idx → EReal :=
  fun i => max (agg i + h i * d (ix2 (i 0) 0) + b (ix2 0 (i 1))) (Ideal.ofBits .f32 0x00000000#32)

theorem zeros2 : (![0, 0] : Fin 2 → Nat) = fun _ => 0 := funext fun a => by fin_cases a <;> rfl

/-- One band's arithmetic at row p, column q of the band: the column d is read at row p, the row b at column q. -/
theorem band_apply (x0 x1 : Vec Ideal S2000x16 .f32) (x2 : Vec Ideal S2000x1 .f32) (x3 : Vec Ideal S1x16 .f32)
    (p : Fin 2000) (q : Fin 16) :
    k1_pay1 (F := Ideal) x0 x1 x2 x3 (ix2 p q)
      = max (x0 (ix2 p q) + x1 (ix2 p q) * x2 (ix2 p 0) + x3 (ix2 0 q)) (Ideal.ofBits .f32 0x00000000#32) := by
  unfold k1_pay1
  simp only [shapeCast_self]
  have e2 : broadcastTo S2000x16 x2 broadcasts_S2000x1_S2000x16 (ix2 p q) = x2 (ix2 p 0) :=
    broadcastTo_apply x2 _ (ix2 p q) (ix2 p 0) (fun a => by match a with | ⟨0, _⟩ => rfl | ⟨1, _⟩ => rfl)
  have e3 : broadcastTo S2000x16 x3 broadcasts_S1x16_S2000x16 (ix2 p q) = x3 (ix2 0 q) :=
    broadcastTo_apply x3 _ (ix2 p q) (ix2 0 q) (fun a => by match a with | ⟨0, _⟩ => rfl | ⟨1, _⟩ => rfl)
  show max (x0 (ix2 p q) + x1 (ix2 p q) * broadcastTo S2000x16 x2 broadcasts_S2000x1_S2000x16 (ix2 p q) + broadcastTo S2000x16 x3 broadcasts_S1x16_S2000x16 (ix2 p q)) (Ideal.ofBits .f32 0x00000000#32) = _
  rw [e2, e3]

/-- Where each window's band sits at point t: the banded windows all sit at band t of their arrays, the bias row at
    its only block. -/
theorem band_index : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 49 :=
  (by decide +kernel : ∀ t : Fin grid1.N, _)

/-- Every band is some point's. -/
theorem band_onto : ∀ r : Fin 50, ∃ t : Fin cfg1.N, win1_4.index t = ![r.val, 0] :=
  (by decide +kernel : ∀ r : Fin 50, ∃ t : Fin grid1.N, win1_4.index t = ![r.val, 0])

/-- The same arithmetic at equal places. -/
theorem reindex (A H : S100000x16.Idx → EReal) (Dq : S100000x1.Idx → EReal) (B : S1x16.Idx → EReal)
    {e0 e1 E : S100000x16.Idx} {e2 e2' : S100000x1.Idx} {e3 e3' : S1x16.Idx}
    (h0 : e0 = E) (h1 : e1 = E) (h2 : e2 = e2') (h3 : e3 = e3') :
    max (A e0 + H e1 * Dq e2 + B e3) (Ideal.ofBits .f32 0x00000000#32) = max (A E + H E * Dq e2' + B e3') (Ideal.ofBits .f32 0x00000000#32) := by
  rw [h0, h1, h2, h3]

section
variable (V : (c : Dev nD) → (b : Ref sig .tc) → Buf (Elt Ideal) ((c : Thread nD τ).loc b))

/-- What point t writes back is band t of G of the arrays as the launch finds them. -/
theorem flushed_eq (c : Dev nD) (t : Fin cfg1.N) :
    (dat1 (F := Ideal) V c).flushed 4 t
      = ((cfg1.win 4).blk t).view.read (Elt Ideal) (G (V c main_v38) (V c main_v0) (V c main_v40) (V c main_v41)) := by
  show (cfg1.win 4).cut (grid1.coords t) ((dat1 (F := Ideal) V c).after 4 t) = _
  rw [after1_4]
  unfold out1_4
  rw [View.canon_unit_zero zeros2]
  simp only [View.ld_unit_zero (S := S2000x16) zeros2, View.ld_unit_zero (S := S2000x1) zeros2, View.ld_unit_zero (S := S1x16) zeros2]
  obtain ⟨e00, e01, e10, e11, e20, e21, e30, e31, e41, e40⟩ := band_index t
  funext j
  obtain ⟨p, q, rfl⟩ : ∃ (p : Fin 2000) (q : Fin 16), j = ix2 p q := ⟨j 0, j 1, eq_ix2 j⟩
  refine (band_apply (iblk1 V c 0 t) (iblk1 V c 1 t) (iblk1 V c 2 t) (iblk1 V c 3 t) p q).trans ?_
  have hp : p.val < 2000 := p.isLt
  have hq : q.val < 16 := q.isLt
  have h0 : ((cfg1.win 0).blk t).view.emb (ix2 p q) = ((cfg1.win 4).blk t).view.emb (ix2 p q) := by
    funext a; apply Fin.ext
    match a with
    | ⟨0, _⟩ => show win1_0.index t (0 : Fin 2) * 2000 + 1 * p.val = win1_4.index t (0 : Fin 2) * 2000 + 1 * p.val; omega
    | ⟨1, _⟩ => show win1_0.index t (1 : Fin 2) * 16 + 1 * q.val = win1_4.index t (1 : Fin 2) * 16 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 2000 + 1 * p.val = win1_4.index t (0 : Fin 2) * 2000 + 1 * p.val; omega
    | ⟨1, _⟩ => show win1_1.index t (1 : Fin 2) * 16 + 1 * q.val = win1_4.index t (1 : Fin 2) * 16 + 1 * q.val; omega
  have h2 : ((cfg1.win 2).blk t).view.emb (ix2 p (0 : Fin 1))
      = ix2 ((((cfg1.win 4).blk t).view.emb (ix2 p q)) 0) (0 : Fin 1) := by
    funext a; apply Fin.ext
    match a with
    | ⟨0, _⟩ => show win1_2.index t (0 : Fin 2) * 2000 + 1 * p.val = win1_4.index t (0 : Fin 2) * 2000 + 1 * p.val; omega
    | ⟨1, _⟩ => show win1_2.index t (1 : Fin 2) * 1 + 1 * 0 = 0; omega
  have h3 : ((cfg1.win 3).blk t).view.emb (ix2 (0 : Fin 1) q)
      = ix2 (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 16 + 1 * q.val = win1_4.index t (1 : Fin 2) * 16 + 1 * q.val; omega
  exact reindex (V c main_v38) (V c main_v0) (V c main_v40) (V c main_v41) h0 h1 h2 h3

/-- An entry of the result array is in point t's band iff each coordinate is in the band's range on its axis. -/
theorem mem_band (t : Fin cfg1.N) (i : S100000x16.Idx) :
    i ∈ ((cfg1.win 4).blk t).view.set ↔ ∀ a : Fin 2, win1_4.index t a * S2000x16.size a ≤ (i a).val ∧ (i a).val < win1_4.index t a * S2000x16.size a + S2000x16.size a := by
  show i ∈ ((View.whole main_v42).slice (win1_4.rect t)).set ↔ _
  rw [View.set_slice_whole, Rect.mem_set_unit]
  exact Iff.rfl

/-- The bands tile the array: row r lies in band r / 2000. -/
theorem covered (i : S100000x16.Idx) :
    ∃ t : Fin cfg1.N, (cfg1.win 4).flush t = true ∧ i ∈ ((cfg1.win 4).blk t).view.set := by
  have hi0 : (i 0).val < 100000 := (i 0).isLt
  have hi1 : (i 1).val < 16 := (i 1).isLt
  obtain ⟨t, ht⟩ := band_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_band]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 16 ≤ (i 1).val ∧ (i 1).val < win1_4.index t (1 : Fin 2) * 16 + 16; omega

/-- The result array after the launch is G of the operand arrays as the launch found them. -/
theorem final (c : Dev nD) :
    (dat1 (F := Ideal) V c).arrAt 4 cfg1.N = G (V c main_v38) (V c main_v0) (V c main_v40) (V c main_v41) :=
  (dat1 (F := Ideal) V c).arrAt_eq_of_cover 4 _ (fun t _ => flushed_eq V c t) (covered)

end

end Cert.KernelIdeal.CombineRelu

end
-- ==== Proof.ProjectOut.lean ====
/-
  The second matrix-product launch: entry (i, j) of the result is the sum over k of x[i, k] · w[k, j].
  The launch walks the rows of x in fifty bands of two thousand; band t of the result is the product of band t
  of x with the whole of w, accumulated into zeros, and the fifty bands tile the result.
-/
import proofs.«122372_j50457275793466_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.ProjectOut

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The product as one function of the two operand arrays, entry by entry. -/
def G (x : S100000x16.Idx → EReal) (w : S16x40.Idx → EReal) : S100000x40.Idx → EReal :=
  fun i => ∑ k : Fin 16, x (ix2 (i 0) k) * w (ix2 k (i 1))

theorem zeros2 : (![0, 0] : Fin 2 → Nat) = fun _ => 0 := funext fun a => by fin_cases a <;> rfl

/-- The left operand is read at the output's row, -/
theorem lhs_row (i : S2000x40.Idx) (r : dot_S2000x16_S16x40_S2000x40_1_0_0_1_n_n.contr.Idx) : (dot_S2000x16_S16x40_S2000x40_1_0_0_1_n_n.lhsIdx i r 0).val = (i 0).val := by
  unfold DotDims.lhsIdx
  rw [dif_neg (show ¬(0 : Fin S2000x16.rank) ∈ dot_S2000x16_S16x40_S2000x40_1_0_0_1_n_n.lhsBatch by decide), dif_pos (show (0 : Fin S2000x16.rank) ∈ dot_S2000x16_S16x40_S2000x40_1_0_0_1_n_n.lhsNonContracting by decide)]
  rfl
/-- and the right operand at the output's column. -/
theorem rhs_col (i : S2000x40.Idx) (r : dot_S2000x16_S16x40_S2000x40_1_0_0_1_n_n.contr.Idx) : (dot_S2000x16_S16x40_S2000x40_1_0_0_1_n_n.rhsIdx i r 1).val = (i 1).val := by
  unfold DotDims.rhsIdx
  rw [dif_neg (show ¬(1 : Fin S16x40.rank) ∈ dot_S2000x16_S16x40_S2000x40_1_0_0_1_n_n.rhsBatch by decide), dif_pos (show (1 : Fin S16x40.rank) ∈ dot_S2000x16_S16x40_S2000x40_1_0_0_1_n_n.rhsNonContracting by decide)]
  rfl

/-- One band's product at row p, column q of the band: the sum over the contracted axis. -/
theorem band_apply (x0 : Vec Ideal S2000x16 .f32) (x1 : Vec Ideal S16x40 .f32) (p : Fin 2000) (q : Fin 40) :
    k2_pay1 (F := Ideal) x0 x1 (ix2 p q) = ∑ k : Fin 16, x0 (ix2 p k) * x1 (ix2 k q) := by
  unfold k2_pay1
  try simp only [shapeCast_self]
  show matmul (F := Ideal) (φ₁ := .f32) (φ₂ := .f32) dot_S2000x16_S16x40_S2000x40_1_0_0_1_n_n none x0 x1 (constant S2000x40 .f32 0x00000000#32) (ix2 p q) = _
  refine (Ideal.matmul_constant_zero_apply dot_S2000x16_S16x40_S2000x40_1_0_0_1_n_n none x0 x1 (ix2 p q)).trans ?_
  rw [← Equiv.sum_comp (contrEquiv1 dot_S2000x16_S16x40_S2000x40_1_0_0_1_n_n 16 rfl rfl).symm]
  refine Finset.sum_congr rfl fun k _ => ?_
  have hk := contrEquiv1_symm_val dot_S2000x16_S16x40_S2000x40_1_0_0_1_n_n 16 rfl rfl k
  have el : dot_S2000x16_S16x40_S2000x40_1_0_0_1_n_n.lhsIdx (ix2 p q) ((contrEquiv1 dot_S2000x16_S16x40_S2000x40_1_0_0_1_n_n 16 rfl rfl).symm k) = ix2 p k := funext fun a => Fin.ext (by
    match a with
    | ⟨0, _⟩ => exact lhs_row _ _
    | ⟨1, _⟩ => exact (dot_S2000x16_S16x40_S2000x40_1_0_0_1_n_n.lhsIdx_val_of_single rfl _ _).trans hk)
  have er : dot_S2000x16_S16x40_S2000x40_1_0_0_1_n_n.rhsIdx (ix2 p q) ((contrEquiv1 dot_S2000x16_S16x40_S2000x40_1_0_0_1_n_n 16 rfl rfl).symm k) = ix2 k q := funext fun a => Fin.ext (by
    match a with
    | ⟨0, _⟩ => exact (dot_S2000x16_S16x40_S2000x40_1_0_0_1_n_n.rhsIdx_val_of_single rfl _ _).trans hk
    | ⟨1, _⟩ => exact rhs_col _ _)
  rw [el, er]

/-- Where each window's block sits at point t: x and the result at band t, w at its only block. -/
theorem band_index : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 49 :=
  (by decide +kernel : ∀ t : Fin grid2.N, _)

/-- Every band is some point's. -/
theorem band_onto : ∀ r : Fin 50, ∃ t : Fin cfg2.N, win2_2.index t = ![r.val, 0] :=
  (by decide +kernel : ∀ r : Fin 50, ∃ t : Fin grid2.N, win2_2.index t = ![r.val, 0])

/-- The same sum at equal places. -/
theorem reindex (X : S100000x16.Idx → EReal) (Wt : S16x40.Idx → EReal)
    {a a' : Fin 16 → S100000x16.Idx} {b b' : Fin 16 → S16x40.Idx} (ha : ∀ k, a k = a' k) (hb : ∀ k, b k = b' k) :
    ∑ k : Fin 16, X (a k) * Wt (b k) = ∑ k : Fin 16, X (a' k) * Wt (b' k) :=
  Finset.sum_congr rfl fun k _ => by rw [ha k, hb k]

section
variable (V : (c : Dev nD) → (b : Ref sig .tc) → Buf (Elt Ideal) ((c : Thread nD τ).loc b))

set_option maxHeartbeats 1000000 in
/-- What point t writes back is band t of G of the arrays as the launch finds them. -/
theorem flushed_eq (c : Dev nD) (t : Fin cfg2.N) :
    (dat2 (F := Ideal) V c).flushed 2 t
      = ((cfg2.win 2).blk t).view.read (Elt Ideal) (G (V c main_v42) (V c main_arg6)) := by
  show (cfg2.win 2).cut (grid2.coords t) ((dat2 (F := Ideal) V c).after 2 t) = _
  rw [after2_2]
  unfold out2_2
  rw [View.canon_unit_zero zeros2]
  simp only [View.ld_unit_zero (S := S2000x16) zeros2, View.ld_unit_zero (S := S16x40) zeros2]
  obtain ⟨e00, e01, e10, e11, e21, e20⟩ := band_index t
  funext j
  obtain ⟨p, q, rfl⟩ : ∃ (p : Fin 2000) (q : Fin 40), j = ix2 p q := ⟨j 0, j 1, eq_ix2 j⟩
  refine (band_apply (iblk2 V c 0 t) (iblk2 V c 1 t) p q).trans ?_
  have hp : p.val < 2000 := p.isLt
  have hq : q.val < 40 := q.isLt
  have h0 : ∀ k : Fin 16, ((cfg2.win 0).blk t).view.emb (ix2 p k)
      = ix2 ((((cfg2.win 2).blk t).view.emb (ix2 p q)) 0) k := by
    intro k
    have hk : k.val < 16 := k.isLt
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 16 + 1 * k.val = k.val; omega
  have h1 : ∀ k : Fin 16, ((cfg2.win 1).blk t).view.emb (ix2 k q)
      = ix2 k ((((cfg2.win 2).blk t).view.emb (ix2 p q)) 1) := by
    intro k
    have hk : k.val < 16 := k.isLt
    funext a; apply Fin.ext
    match a with
    | ⟨0, _⟩ => show win2_1.index t (0 : Fin 2) * 16 + 1 * k.val = k.val; omega
    | ⟨1, _⟩ => show win2_1.index t (1 : Fin 2) * 40 + 1 * q.val = win2_2.index t (1 : Fin 2) * 40 + 1 * q.val; omega
  show _ = G (V c main_v42) (V c main_arg6) (((cfg2.win 2).blk t).view.emb (ix2 p q))
  unfold G
  exact reindex (V c main_v42) (V c main_arg6) h0 h1

/-- An entry of the result array is in point t's band iff each coordinate is in the band's range on its axis. -/
theorem mem_band (t : Fin cfg2.N) (i : S100000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v43).slice (win2_2.rect t)).set ↔ _
  rw [View.set_slice_whole, Rect.mem_set_unit]
  exact Iff.rfl

/-- The bands tile the array: row r lies in band r / 2000. -/
theorem covered (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := band_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_band]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 40 ≤ (i 1).val ∧ (i 1).val < win2_2.index t (1 : Fin 2) * 40 + 40; omega

/-- The result array after the launch is G of the operand arrays as the launch found them. -/
theorem final (c : Dev nD) :
    (dat2 (F := Ideal) V c).arrAt 2 cfg2.N = G (V c main_v42) (V c main_arg6) :=
  (dat2 (F := Ideal) V c).arrAt_eq_of_cover 2 _ (fun t _ => flushed_eq V c t) (covered)

end

end Cert.KernelIdeal.ProjectOut

end
-- ==== Proof.CombineOut.lean ====
/-
  The second combining launch: row i, column j of the result is
      agg[i, j] + h[i, j] · d[i, 0] + b[0, j],
  where agg is the aggregated messages, h the projected features, d the squared inverse degree as a column
  and b the bias as a row.  The launch walks the rows in fifty bands of two thousand; band t of the result
  is computed from band t of agg, h and d and from the whole row b, and the fifty bands tile the array.
-/
import proofs.«122372_j50457275793466_1_alg».proof.Proof.Gen.KernelIdeal.Frame
import Idealize.ShloMosaic.Lib.Pipeline.Value
import Idealize.ShloMosaic.Lib.ValueIdx

set_option maxRecDepth 16384

noncomputable section

namespace Cert.KernelIdeal.CombineOut

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The result array as one function of the four operand arrays, entry by entry. -/
def G (agg h : S100000x40.Idx → EReal) (d : S100000x1.Idx → EReal) (b : S1x40.Idx → EReal) : S100000x40.Idx → EReal :=
  fun i => agg i + h i * d (ix2 (i 0) 0) + b (ix2 0 (i 1))

theorem zeros2 : (![0, 0] : Fin 2 → Nat) = fun _ => 0 := funext fun a => by fin_cases a <;> rfl

/-- One band's arithmetic at row p, column q of the band: the column d is read at row p, the row b at column q. -/
theorem band_apply (x0 x1 : Vec Ideal S2000x40 .f32) (x2 : Vec Ideal S2000x1 .f32) (x3 : Vec Ideal S1x40 .f32)
    (p : Fin 2000) (q : Fin 40) :
    k3_pay1 (F := Ideal) x0 x1 x2 x3 (ix2 p q)
      = x0 (ix2 p q) + x1 (ix2 p q) * x2 (ix2 p 0) + x3 (ix2 0 q) := by
  unfold k3_pay1
  simp only [shapeCast_self]
  have e2 : broadcastTo S2000x40 x2 broadcasts_S2000x1_S2000x40 (ix2 p q) = x2 (ix2 p 0) :=
    broadcastTo_apply x2 _ (ix2 p q) (ix2 p 0) (fun a => by match a with | ⟨0, _⟩ => rfl | ⟨1, _⟩ => rfl)
  have e3 : broadcastTo S2000x40 x3 broadcasts_S1x40_S2000x40 (ix2 p q) = x3 (ix2 0 q) :=
    broadcastTo_apply x3 _ (ix2 p q) (ix2 0 q) (fun a => by match a with | ⟨0, _⟩ => rfl | ⟨1, _⟩ => rfl)
  show x0 (ix2 p q) + x1 (ix2 p q) * broadcastTo S2000x40 x2 broadcasts_S2000x1_S2000x40 (ix2 p q) + broadcastTo S2000x40 x3 broadcasts_S1x40_S2000x40 (ix2 p q) = _
  rw [e2, e3]

/-- Where each window's band sits at point t: the banded windows all sit at band t of their arrays, the bias row at
    its only block. -/
theorem band_index : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 49 :=
  (by decide +kernel : ∀ t : Fin grid3.N, _)

/-- Every band is some point's. -/
theorem band_onto : ∀ r : Fin 50, ∃ t : Fin cfg3.N, win3_4.index t = ![r.val, 0] :=
  (by decide +kernel : ∀ r : Fin 50, ∃ t : Fin grid3.N, win3_4.index t = ![r.val, 0])

/-- The same arithmetic at equal places. -/
theorem reindex (A H : S100000x40.Idx → EReal) (Dq : S100000x1.Idx → EReal) (B : S1x40.Idx → EReal)
    {e0 e1 E : S100000x40.Idx} {e2 e2' : S100000x1.Idx} {e3 e3' : S1x40.Idx}
    (h0 : e0 = E) (h1 : e1 = E) (h2 : e2 = e2') (h3 : e3 = e3') :
    A e0 + H e1 * Dq e2 + B e3 = A E + H E * Dq e2' + B e3' := by
  rw [h0, h1, h2, h3]

section
variable (V : (c : Dev nD) → (b : Ref sig .tc) → Buf (Elt Ideal) ((c : Thread nD τ).loc b))

set_option maxHeartbeats 1000000 in
/-- What point t writes back is band t of G of the arrays as the launch finds them. -/
theorem flushed_eq (c : Dev nD) (t : Fin cfg3.N) :
    (dat3 (F := Ideal) V c).flushed 4 t
      = ((cfg3.win 4).blk t).view.read (Elt Ideal) (G (V c main_v81) (V c main_v43) (V c main_v83) (V c main_v84)) := by
  show (cfg3.win 4).cut (grid3.coords t) ((dat3 (F := Ideal) V c).after 4 t) = _
  rw [after3_4]
  unfold out3_4
  rw [View.canon_unit_zero zeros2]
  simp only [View.ld_unit_zero (S := S2000x40) zeros2, View.ld_unit_zero (S := S2000x1) zeros2, View.ld_unit_zero (S := S1x40) zeros2]
  obtain ⟨e00, e01, e10, e11, e20, e21, e30, e31, e41, e40⟩ := band_index t
  funext j
  obtain ⟨p, q, rfl⟩ : ∃ (p : Fin 2000) (q : Fin 40), j = ix2 p q := ⟨j 0, j 1, eq_ix2 j⟩
  refine (band_apply (iblk3 V c 0 t) (iblk3 V c 1 t) (iblk3 V c 2 t) (iblk3 V c 3 t) p q).trans ?_
  have hp : p.val < 2000 := p.isLt
  have hq : q.val < 40 := q.isLt
  have h0 : ((cfg3.win 0).blk t).view.emb (ix2 p q) = ((cfg3.win 4).blk t).view.emb (ix2 p q) := by
    funext a; apply Fin.ext
    match a with
    | ⟨0, _⟩ => show win3_0.index t (0 : Fin 2) * 2000 + 1 * p.val = win3_4.index t (0 : Fin 2) * 2000 + 1 * p.val; omega
    | ⟨1, _⟩ => show win3_0.index t (1 : Fin 2) * 40 + 1 * q.val = win3_4.index t (1 : Fin 2) * 40 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 2000 + 1 * p.val = win3_4.index t (0 : Fin 2) * 2000 + 1 * p.val; omega
    | ⟨1, _⟩ => show win3_1.index t (1 : Fin 2) * 40 + 1 * q.val = win3_4.index t (1 : Fin 2) * 40 + 1 * q.val; omega
  have h2 : ((cfg3.win 2).blk t).view.emb (ix2 p (0 : Fin 1))
      = ix2 ((((cfg3.win 4).blk t).view.emb (ix2 p q)) 0) (0 : Fin 1) := by
    funext a; apply Fin.ext
    match a with
    | ⟨0, _⟩ => show win3_2.index t (0 : Fin 2) * 2000 + 1 * p.val = win3_4.index t (0 : Fin 2) * 2000 + 1 * p.val; omega
    | ⟨1, _⟩ => show win3_2.index t (1 : Fin 2) * 1 + 1 * 0 = 0; omega
  have h3 : ((cfg3.win 3).blk t).view.emb (ix2 (0 : Fin 1) q)
      = ix2 (0 : Fin 1) ((((cfg3.win 4).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 40 + 1 * q.val = win3_4.index t (1 : Fin 2) * 40 + 1 * q.val; omega
  show _ = G (V c main_v81) (V c main_v43) (V c main_v83) (V c main_v84) (((cfg3.win 4).blk t).view.emb (ix2 p q))
  unfold G
  exact reindex (V c main_v81) (V c main_v43) (V c main_v83) (V c main_v84) h0 h1 h2 h3

/-- An entry of the result array is in point t's band iff each coordinate is in the band's range on its axis. -/
theorem mem_band (t : Fin cfg3.N) (i : S100000x40.Idx) :
    i ∈ ((cfg3.win 4).blk t).view.set ↔ ∀ a : Fin 2, win3_4.index t a * S2000x40.size a ≤ (i a).val ∧ (i a).val < win3_4.index t a * S2000x40.size a + S2000x40.size a := by
  show i ∈ ((View.whole main_v85).slice (win3_4.rect t)).set ↔ _
  rw [View.set_slice_whole, Rect.mem_set_unit]
  exact Iff.rfl

/-- The bands tile the array: row r lies in band r / 2000. -/
theorem covered (i : S100000x40.Idx) :
    ∃ t : Fin cfg3.N, (cfg3.win 4).flush t = true ∧ i ∈ ((cfg3.win 4).blk t).view.set := by
  have hi0 : (i 0).val < 100000 := (i 0).isLt
  have hi1 : (i 1).val < 40 := (i 1).isLt
  obtain ⟨t, ht⟩ := band_onto ⟨(i 0).val / 2000, by omega⟩
  have q0 : win3_4.index t (0 : Fin 2) = (i 0).val / 2000 := congrFun ht 0
  have q1 : win3_4.index t (1 : Fin 2) = 0 := congrFun ht 1
  refine ⟨t, flush3_4 t, ?_⟩
  rw [mem_band]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 40 ≤ (i 1).val ∧ (i 1).val < win3_4.index t (1 : Fin 2) * 40 + 40; omega

/-- The result array after the launch is G of the operand arrays as the launch found them. -/
theorem final (c : Dev nD) :
    (dat3 (F := Ideal) V c).arrAt 4 cfg3.N = G (V c main_v81) (V c main_v43) (V c main_v83) (V c main_v84) :=
  (dat3 (F := Ideal) V c).arrAt_eq_of_cover 4 _ (fun t _ => flushed_eq V c t) (covered)

end

end Cert.KernelIdeal.CombineOut

end
-- ==== Proof.LogSoftmax.lean ====
/-
  The last launch: a row-wise log-softmax.  For a row r = (r_0, …, r_39) let m be its largest entry (the fold of max from
  −∞) and z_k = r_k − m; entry q of the result row is  z_q − log (Σ_k exp z_k).
  The launch walks the rows in fifty bands of two thousand; a row of band t of the result depends only on the same row
  of band t of the operand, and the fifty bands tile the array.
-/
import proofs.«122372_j50457275793466_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LogSoftmax

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The largest entry of a row, folded from −∞. -/
def rowMax (row : Fin 40 → EReal) : EReal :=
  (Finset.univ : Finset (Fin 40)).fold max (Ideal.ofBits .f32 0xFF800000#32) row

/-- Entry q of the log-softmax of a row. -/
def rowLsm (row : Fin 40 → EReal) (q : Fin 40) : EReal :=
  (row q - rowMax row) - Ideal.log (∑ k : Fin 40, Ideal.exp (row k - rowMax row))

/-- The result array as one function of the operand array, entry by entry. -/
def G (x : S100000x40.Idx → EReal) : S100000x40.Idx → EReal :=
  fun i => rowLsm (fun k => x (ix2 (i 0) k)) (i 1)

theorem zeros2 : (![0, 0] : Fin 2 → Nat) = fun _ => 0 := funext fun a => by fin_cases a <;> rfl

/-- The entry of a band that the lane reduction reads for row p, lane k. -/
theorem lane (p : Fin 2000) (k : Fin (S2000x40.size 1)) :
    reduces_S2000x40_S2000.lift (ix1 p) k = ix2 p (⟨k.val, k.isLt⟩ : Fin 40) := by
  funext c; apply Fin.ext
  show reduces_S2000x40_S2000.liftVal (ix1 p) k.val c = _
  unfold Shape.Reduces.liftVal
  match c with
  | ⟨0, _⟩ => rfl
  | ⟨1, _⟩ => rfl

/-- The lane maximum of a band at row p. -/
theorem lane_max (x : FVec Ideal S2000x40 .f32) (hφ) (hacc) (p : Fin 2000) :
    multiReduction .maximumf [1] S2000 x 0xFF800000#32 reduces_S2000x40_S2000 hφ hacc (ix1 p) = rowMax (fun k => x (ix2 p k)) := by
  refine (Ideal.multiReduction_maximumf_single x 0xFF800000#32 reduces_S2000x40_S2000 hφ hacc (ix1 p)).trans ?_
  unfold rowMax
  refine congrArg (Finset.fold max _ · Finset.univ) (funext fun k => ?_)
  exact congrArg x (lane p k)

/-- The lane sum of a band at row p. -/
theorem lane_sum (y : FVec Ideal S2000x40 .f32) (hφ) (hacc) (p : Fin 2000) :
    multiReduction .add [1] S2000 y 0x00000000#32 reduces_S2000x40_S2000 hφ hacc (ix1 p) = ∑ k : Fin 40, y (ix2 p k) := by
  refine (Ideal.multiReduction_add_single y 0x00000000#32 reduces_S2000x40_S2000 hφ hacc (ix1 p)).trans ?_
  refine Finset.sum_congr rfl fun k _ => ?_
  exact congrArg y (lane p k)

/-- A per-row value kept as a column and spread over the lanes reads the row's value. -/
theorem spread (v : FVec Ideal S2000 .f32) (p : Fin 2000) (q : Fin 40) :
    broadcastTo S2000x40 (shapeCast S2000x1 v shapeCasts_S2000_S2000x1) broadcasts_S2000x1_S2000x40 (ix2 p q) = v (ix1 p) := by
  refine (broadcastTo_apply _ _ (ix2 p q) (ix2 p 0) (fun a => by match a with | ⟨0, _⟩ => rfl | ⟨1, _⟩ => rfl)).trans ?_
  refine shapeCast_apply v _ (ix2 p 0) (ix1 p) ?_
  rw [Shape.rowMajor_val_one, Shape.rowMajor_val_two]
  show p.val = p.val * 1 + 0
  omega

/-- The same with the logarithm taken on the column. -/
theorem spread_log (v : FVec Ideal S2000 .f32) (p : Fin 2000) (q : Fin 40) :
    broadcastTo S2000x40 (log (shapeCast S2000x1 v shapeCasts_S2000_S2000x1)) broadcasts_S2000x1_S2000x40 (ix2 p q) = Ideal.log (v (ix1 p)) := by
  refine (broadcastTo_apply _ _ (ix2 p q) (ix2 p 0) (fun a => by match a with | ⟨0, _⟩ => rfl | ⟨1, _⟩ => rfl)).trans ?_
  show Ideal.log (shapeCast S2000x1 v shapeCasts_S2000_S2000x1 (ix2 p 0)) = _
  refine congrArg Ideal.log (shapeCast_apply v _ (ix2 p 0) (ix1 p) ?_)
  rw [Shape.rowMajor_val_one, Shape.rowMajor_val_two]
  show p.val = p.val * 1 + 0
  omega

theorem exp_at (v : FVec Ideal S2000x40 .f32) (i : S2000x40.Idx) : exp v i = Ideal.exp (v i) := rfl

/-- One band's arithmetic at row p, lane q of the band. -/
theorem band_apply (x0 : Vec Ideal S2000x40 .f32) (p : Fin 2000) (q : Fin 40) :
    k4_pay1 (F := Ideal) x0 (ix2 p q) = rowLsm (fun k => x0 (ix2 p k)) q := by
  unfold k4_pay1
  simp only [shapeCast_self]
  have shifted : ∀ k : Fin 40,
      subf (F := Ideal) (φ := .f32) x0 (broadcastTo S2000x40 (shapeCast S2000x1 (multiReduction (F := Ideal) (φ := .f32) .maximumf [1] S2000 x0 0xFF800000#32 reduces_S2000x40_S2000 k4_pay1._proof_2 k4_pay1._proof_3) shapeCasts_S2000_S2000x1) broadcasts_S2000x1_S2000x40) (ix2 p k)
        = x0 (ix2 p k) - rowMax (fun k => x0 (ix2 p k)) := by
    intro k
    refine (subf_apply _ _ (ix2 p k)).trans ?_
    refine congrArg (x0 (ix2 p k) - ·) ?_
    exact (spread _ p k).trans (lane_max x0 _ _ p)
  refine (subf_apply _ _ (ix2 p q)).trans ?_
  unfold rowLsm
  refine congrArg₂ (· - ·) (shifted q) ?_
  refine (spread_log _ p q).trans ?_
  refine congrArg Ideal.log ?_
  refine (lane_sum _ _ _ p).trans ?_
  refine Finset.sum_congr rfl fun k _ => ?_
  refine (exp_at _ (ix2 p k)).trans ?_
  exact congrArg Ideal.exp (shifted k)

/-- Where each window's band sits at point t: both at band t. -/
theorem band_index : ∀ t : Fin cfg4.N,
    win4_0.index t (0 : Fin 2) = win4_1.index t (0 : Fin 2) ∧ win4_0.index t (1 : Fin 2) = 0
    ∧ win4_1.index t (1 : Fin 2) = 0 ∧ win4_1.index t (0 : Fin 2) ≤ 49 :=
  (by decide +kernel : ∀ t : Fin grid4.N, _)

/-- Every band is some point's. -/
theorem band_onto : ∀ r : Fin 50, ∃ t : Fin cfg4.N, win4_1.index t = ![r.val, 0] :=
  (by decide +kernel : ∀ r : Fin 50, ∃ t : Fin grid4.N, win4_1.index t = ![r.val, 0])

/-- The same row, read at equal places, has the same log-softmax. -/
theorem reindex (X : S100000x40.Idx → EReal) {a a' : Fin 40 → S100000x40.Idx} {q q' : Fin 40}
    (ha : ∀ k, a k = a' k) (hq : q = q') :
    rowLsm (fun k => X (a k)) q = rowLsm (fun k => X (a' k)) q' := by
  subst hq
  have : a = a' := funext ha
  subst this
  rfl

section
variable (V : (c : Dev nD) → (b : Ref sig .tc) → Buf (Elt Ideal) ((c : Thread nD τ).loc b))

set_option maxHeartbeats 1000000 in
/-- What point t writes back is band t of G of the array as the launch finds it. -/
theorem flushed_eq (c : Dev nD) (t : Fin cfg4.N) :
    (dat4 (F := Ideal) V c).flushed 1 t
      = ((cfg4.win 1).blk t).view.read (Elt Ideal) (G (V c main_v85)) := by
  show (cfg4.win 1).cut (grid4.coords t) ((dat4 (F := Ideal) V c).after 1 t) = _
  rw [after4_1]
  unfold out4_1
  rw [View.canon_unit_zero zeros2]
  simp only [View.ld_unit_zero (S := S2000x40) zeros2]
  obtain ⟨e00, e01, e11, e10⟩ := band_index t
  funext j
  obtain ⟨p, q, rfl⟩ : ∃ (p : Fin 2000) (q : Fin 40), j = ix2 p q := ⟨j 0, j 1, eq_ix2 j⟩
  refine (band_apply (iblk4 V c 0 t) p q).trans ?_
  have hp : p.val < 2000 := p.isLt
  have hq : q.val < 40 := q.isLt
  have h0 : ∀ k : Fin 40, ((cfg4.win 0).blk t).view.emb (ix2 p k)
      = ix2 ((((cfg4.win 1).blk t).view.emb (ix2 p q)) 0) k := by
    intro k
    have hk : k.val < 40 := k.isLt
    funext a; apply Fin.ext
    match a with
    | ⟨0, _⟩ => show win4_0.index t (0 : Fin 2) * 2000 + 1 * p.val = win4_1.index t (0 : Fin 2) * 2000 + 1 * p.val; omega
    | ⟨1, _⟩ => show win4_0.index t (1 : Fin 2) * 40 + 1 * k.val = k.val; omega
  have h1 : q = (((cfg4.win 1).blk t).view.emb (ix2 p q)) 1 := by
    apply Fin.ext
    show q.val = win4_1.index t (1 : Fin 2) * 40 + 1 * q.val
    omega
  show _ = G (V c main_v85) (((cfg4.win 1).blk t).view.emb (ix2 p q))
  unfold G
  exact reindex (V c main_v85) h0 h1

/-- An entry of the result array is in point t's band iff each coordinate is in the band's range on its axis. -/
theorem mem_band (t : Fin cfg4.N) (i : S100000x40.Idx) :
    i ∈ ((cfg4.win 1).blk t).view.set ↔ ∀ a : Fin 2, win4_1.index t a * S2000x40.size a ≤ (i a).val ∧ (i a).val < win4_1.index t a * S2000x40.size a + S2000x40.size a := by
  show i ∈ ((View.whole main_v86).slice (win4_1.rect t)).set ↔ _
  rw [View.set_slice_whole, Rect.mem_set_unit]
  exact Iff.rfl

/-- The bands tile the array: row r lies in band r / 2000. -/
theorem covered (i : S100000x40.Idx) :
    ∃ t : Fin cfg4.N, (cfg4.win 1).flush t = true ∧ i ∈ ((cfg4.win 1).blk t).view.set := by
  have hi0 : (i 0).val < 100000 := (i 0).isLt
  have hi1 : (i 1).val < 40 := (i 1).isLt
  obtain ⟨t, ht⟩ := band_onto ⟨(i 0).val / 2000, by omega⟩
  have q0 : win4_1.index t (0 : Fin 2) = (i 0).val / 2000 := congrFun ht 0
  have q1 : win4_1.index t (1 : Fin 2) = 0 := congrFun ht 1
  refine ⟨t, flush4_1 t, ?_⟩
  rw [mem_band]
  intro a
  match a with
  | ⟨0, _⟩ => show win4_1.index t (0 : Fin 2) * 2000 ≤ (i 0).val ∧ (i 0).val < win4_1.index t (0 : Fin 2) * 2000 + 2000; omega
  | ⟨1, _⟩ => show win4_1.index t (1 : Fin 2) * 40 ≤ (i 1).val ∧ (i 1).val < win4_1.index t (1 : Fin 2) * 40 + 40; omega

/-- The result array after the launch is G of the operand array as the launch found it. -/
theorem final (c : Dev nD) :
    (dat4 (F := Ideal) V c).arrAt 1 cfg4.N = G (V c main_v85) :=
  (dat4 (F := Ideal) V c).arrAt_eq_of_cover 1 _ (fun t _ => flushed_eq V c t) (covered)

end

end Cert.KernelIdeal.LogSoftmax

end
-- ==== Proof.SpecK.lean ====
/-
  The host stages of the network (the inverse square root of the degrees, the aggregation of messages over the edges)
  spelt with the kernel program's own records, as its host operations state them.
-/
import proofs.«122372_j50457275793466_1_alg».proof.KernelIdeal
import proofs.«122372_j50457275793466_1_alg».proof.Proof.Gen.KernelIdeal
import Idealize.ShloMosaic.PureOps.Ideal

noncomputable section

namespace Cert.GcnK

open Idealize.ShloMosaic Cert.KernelIdeal Cert.KernelIdeal.Gen

/-- The inverse square root of each node's degree (one plus the weights of the edges into it); zero where the degree is not positive. -/
def dinv (x2 : IVec S3200000 32) (x3 : FVec Ideal S3200000 .f32) : FVec Ideal S100000 .f32 :=
  select (cmpf .ogt (addf (Host.scatterAdd scatter_S100000_S3200000x1_S3200000_n_0_0_1 (broadcastInDim S100000 ![] bcast_S_S100000 (constant (F := Ideal) S_ .f32 0x00000000#32)) (broadcastInDim S3200000x1 ![0] bcast_S3200000_S3200000x1_0 x2) x3) (broadcastInDim S100000 ![] bcast_S_S100000 (constant (F := Ideal) S_ .f32 0x3F800000#32))) (broadcastInDim S100000 ![] bcast_S_S100000 (constant (F := Ideal) S_ .f32 0x00000000#32))) (Host.rsqrt (addf (Host.scatterAdd scatter_S100000_S3200000x1_S3200000_n_0_0_1 (broadcastInDim S100000 ![] bcast_S_S100000 (constant (F := Ideal) S_ .f32 0x00000000#32)) (broadcastInDim S3200000x1 ![0] bcast_S3200000_S3200000x1_0 x2) x3) (broadcastInDim S100000 ![] bcast_S_S100000 (constant (F := Ideal) S_ .f32 0x3F800000#32)))) (broadcastInDim S100000 ![] bcast_S_S100000 (constant (F := Ideal) S_ .f32 0x00000000#32))

/-- Its square. -/
def sqDinv (x2 : IVec S3200000 32) (x3 : FVec Ideal S3200000 .f32) : FVec Ideal S100000 .f32 :=
  mulf (dinv x2 x3) (dinv x2 x3)

/-- The first layer's aggregated messages. -/
def agg16 (h : FVec Ideal S100000x16 .f32) (x1 x2 : IVec S3200000 32) (x3 : FVec Ideal S3200000 .f32) : FVec Ideal S100000x16 .f32 :=
  Host.scatterAdd scatter_S100000x16_S3200000x1_S3200000x16_1_0_0_1 (broadcastInDim S100000x16 ![] bcast_S_S100000x16 (constant (F := Ideal) S_ .f32 0x00000000#32)) (broadcastInDim S3200000x1 ![0] bcast_S3200000_S3200000x1_0 x2) (mulf (Host.gather gather_S100000x16_S3200000x1_S3200000x16_1_0_n_n_0_1_116 h (broadcastInDim S3200000x1 ![0] bcast_S3200000_S3200000x1_0 (select (cmpi .slt x1 (broadcastInDim S3200000 ![] bcast_S_S3200000 (constantI S_ 32 0#32))) (addi x1 (broadcastInDim S3200000 ![] bcast_S_S3200000 (constantI S_ 32 100000#32))) x1))) (broadcastInDim S3200000x16 ![0, 1] bcast_S3200000x1_S3200000x16_0_1 (broadcastInDim S3200000x1 ![0] bcast_S3200000_S3200000x1_0 (mulf (mulf (Host.gather gather_S100000_S3200000x1_S3200000_n_0_n_n_0_1_1 (dinv x2 x3) (broadcastInDim S3200000x1 ![0] bcast_S3200000_S3200000x1_0 (select (cmpi .slt x1 (broadcastInDim S3200000 ![] bcast_S_S3200000 (constantI S_ 32 0#32))) (addi x1 (broadcastInDim S3200000 ![] bcast_S_S3200000 (constantI S_ 32 100000#32))) x1))) x3) (Host.gather gather_S100000_S3200000x1_S3200000_n_0_n_n_0_1_1 (dinv x2 x3) (broadcastInDim S3200000x1 ![0] bcast_S3200000_S3200000x1_0 (select (cmpi .slt x2 (broadcastInDim S3200000 ![] bcast_S_S3200000 (constantI S_ 32 0#32))) (addi x2 (broadcastInDim S3200000 ![] bcast_S_S3200000 (constantI S_ 32 100000#32))) x2)))))))

/-- The second layer's aggregated messages. -/
def agg40 (h : FVec Ideal S100000x40 .f32) (x1 x2 : IVec S3200000 32) (x3 : FVec Ideal S3200000 .f32) : FVec Ideal S100000x40 .f32 :=
  Host.scatterAdd scatter_S100000x40_S3200000x1_S3200000x40_1_0_0_1 (broadcastInDim S100000x40 ![] bcast_S_S100000x40 (constant (F := Ideal) S_ .f32 0x00000000#32)) (broadcastInDim S3200000x1 ![0] bcast_S3200000_S3200000x1_0 x2) (mulf (Host.gather gather_S100000x40_S3200000x1_S3200000x40_1_0_n_n_0_1_140 h (broadcastInDim S3200000x1 ![0] bcast_S3200000_S3200000x1_0 (select (cmpi .slt x1 (broadcastInDim S3200000 ![] bcast_S_S3200000 (constantI S_ 32 0#32))) (addi x1 (broadcastInDim S3200000 ![] bcast_S_S3200000 (constantI S_ 32 100000#32))) x1))) (broadcastInDim S3200000x40 ![0, 1] bcast_S3200000x1_S3200000x40_0_1 (broadcastInDim S3200000x1 ![0] bcast_S3200000_S3200000x1_0 (mulf (mulf (Host.gather gather_S100000_S3200000x1_S3200000_n_0_n_n_0_1_1 (dinv x2 x3) (broadcastInDim S3200000x1 ![0] bcast_S3200000_S3200000x1_0 (select (cmpi .slt x1 (broadcastInDim S3200000 ![] bcast_S_S3200000 (constantI S_ 32 0#32))) (addi x1 (broadcastInDim S3200000 ![] bcast_S_S3200000 (constantI S_ 32 100000#32))) x1))) x3) (Host.gather gather_S100000_S3200000x1_S3200000_n_0_n_n_0_1_1 (dinv x2 x3) (broadcastInDim S3200000x1 ![0] bcast_S3200000_S3200000x1_0 (select (cmpi .slt x2 (broadcastInDim S3200000 ![] bcast_S_S3200000 (constantI S_ 32 0#32))) (addi x2 (broadcastInDim S3200000 ![] bcast_S_S3200000 (constantI S_ 32 100000#32))) x2)))))))

end Cert.GcnK

end
-- ==== Proof.Spec.lean ====
/-
  The two-layer graph convolution as one function of its eight arguments, spelt with the host's operations.
  With h = x · W, deg = 1 + (sum of the edge weights into each node) and d = deg^(−1/2) where deg > 0 (else 0), one layer is
      out[j] = Σ_{edges e into j} d[src e] · w_e · d[j] · h[src e]  +  d[j]² · h[j]  +  b ,
  the first layer is followed by a clamp at zero, and the second by a row-wise log-softmax.  The stages are named here
  so that both programs' results can be stated as the same composition and compared stage by stage.
-/
import proofs.«122372_j50457275793466_1_alg».proof.ReferenceIdeal
import proofs.«122372_j50457275793466_1_alg».proof.Proof.Gen.ReferenceIdeal
import Idealize.ShloMosaic.PureOps.Ideal

noncomputable section

namespace Cert.Gcn

open Idealize.ShloMosaic Cert.ReferenceIdeal Cert.ReferenceIdeal.Gen

/-- The inverse square root of each node's degree (one plus the weights of the edges into it); zero where the degree is not positive. -/
def dinv (x2 : IVec S3200000 32) (x3 : FVec Ideal S3200000 .f32) : FVec Ideal S100000 .f32 :=
  select (cmpf .ogt (addf (Host.scatterAdd scatter_S100000_S3200000x1_S3200000_n_0_0_1 (broadcastInDim S100000 ![] bcast_S_S100000 (constant (F := Ideal) S_ .f32 0x00000000#32)) (broadcastInDim S3200000x1 ![0] bcast_S3200000_S3200000x1_0 x2) x3) (broadcastInDim S100000 ![] bcast_S_S100000 (constant (F := Ideal) S_ .f32 0x3F800000#32))) (broadcastInDim S100000 ![] bcast_S_S100000 (constant (F := Ideal) S_ .f32 0x00000000#32))) (Host.rsqrt (addf (Host.scatterAdd scatter_S100000_S3200000x1_S3200000_n_0_0_1 (broadcastInDim S100000 ![] bcast_S_S100000 (constant (F := Ideal) S_ .f32 0x00000000#32)) (broadcastInDim S3200000x1 ![0] bcast_S3200000_S3200000x1_0 x2) x3) (broadcastInDim S100000 ![] bcast_S_S100000 (constant (F := Ideal) S_ .f32 0x3F800000#32)))) (broadcastInDim S100000 ![] bcast_S_S100000 (constant (F := Ideal) S_ .f32 0x00000000#32))

/-- Its square. -/
def sqDinv (x2 : IVec S3200000 32) (x3 : FVec Ideal S3200000 .f32) : FVec Ideal S100000 .f32 :=
  mulf (dinv x2 x3) (dinv x2 x3)

/-- The first layer's aggregated messages: each edge carries its source's features scaled by the edge's normalised weight,
    summed into its target. -/
def agg16 (h : FVec Ideal S100000x16 .f32) (x1 x2 : IVec S3200000 32) (x3 : FVec Ideal S3200000 .f32) : FVec Ideal S100000x16 .f32 :=
  Host.scatterAdd scatter_S100000x16_S3200000x1_S3200000x16_1_0_0_1 (broadcastInDim S100000x16 ![] bcast_S_S100000x16 (constant (F := Ideal) S_ .f32 0x00000000#32)) (broadcastInDim S3200000x1 ![0] bcast_S3200000_S3200000x1_0 x2) (mulf (Host.gather gather_S100000x16_S3200000x1_S3200000x16_1_0_n_n_0_1_116 h (broadcastInDim S3200000x1 ![0] bcast_S3200000_S3200000x1_0 (select (cmpi .slt x1 (broadcastInDim S3200000 ![] bcast_S_S3200000 (constantI S_ 32 0#32))) (addi x1 (broadcastInDim S3200000 ![] bcast_S_S3200000 (constantI S_ 32 100000#32))) x1))) (broadcastInDim S3200000x16 ![0, 1] bcast_S3200000x1_S3200000x16_0_1 (broadcastInDim S3200000x1 ![0] bcast_S3200000_S3200000x1_0 (mulf (mulf (Host.gather gather_S100000_S3200000x1_S3200000_n_0_n_n_0_1_1 (dinv x2 x3) (broadcastInDim S3200000x1 ![0] bcast_S3200000_S3200000x1_0 (select (cmpi .slt x1 (broadcastInDim S3200000 ![] bcast_S_S3200000 (constantI S_ 32 0#32))) (addi x1 (broadcastInDim S3200000 ![] bcast_S_S3200000 (constantI S_ 32 100000#32))) x1))) x3) (Host.gather gather_S100000_S3200000x1_S3200000_n_0_n_n_0_1_1 (dinv x2 x3) (broadcastInDim S3200000x1 ![0] bcast_S3200000_S3200000x1_0 (select (cmpi .slt x2 (broadcastInDim S3200000 ![] bcast_S_S3200000 (constantI S_ 32 0#32))) (addi x2 (broadcastInDim S3200000 ![] bcast_S_S3200000 (constantI S_ 32 100000#32))) x2)))))))

/-- The second layer's aggregated messages. -/
def agg40 (h : FVec Ideal S100000x40 .f32) (x1 x2 : IVec S3200000 32) (x3 : FVec Ideal S3200000 .f32) : FVec Ideal S100000x40 .f32 :=
  Host.scatterAdd scatter_S100000x40_S3200000x1_S3200000x40_1_0_0_1 (broadcastInDim S100000x40 ![] bcast_S_S100000x40 (constant (F := Ideal) S_ .f32 0x00000000#32)) (broadcastInDim S3200000x1 ![0] bcast_S3200000_S3200000x1_0 x2) (mulf (Host.gather gather_S100000x40_S3200000x1_S3200000x40_1_0_n_n_0_1_140 h (broadcastInDim S3200000x1 ![0] bcast_S3200000_S3200000x1_0 (select (cmpi .slt x1 (broadcastInDim S3200000 ![] bcast_S_S3200000 (constantI S_ 32 0#32))) (addi x1 (broadcastInDim S3200000 ![] bcast_S_S3200000 (constantI S_ 32 100000#32))) x1))) (broadcastInDim S3200000x40 ![0, 1] bcast_S3200000x1_S3200000x40_0_1 (broadcastInDim S3200000x1 ![0] bcast_S3200000_S3200000x1_0 (mulf (mulf (Host.gather gather_S100000_S3200000x1_S3200000_n_0_n_n_0_1_1 (dinv x2 x3) (broadcastInDim S3200000x1 ![0] bcast_S3200000_S3200000x1_0 (select (cmpi .slt x1 (broadcastInDim S3200000 ![] bcast_S_S3200000 (constantI S_ 32 0#32))) (addi x1 (broadcastInDim S3200000 ![] bcast_S_S3200000 (constantI S_ 32 100000#32))) x1))) x3) (Host.gather gather_S100000_S3200000x1_S3200000_n_0_n_n_0_1_1 (dinv x2 x3) (broadcastInDim S3200000x1 ![0] bcast_S3200000_S3200000x1_0 (select (cmpi .slt x2 (broadcastInDim S3200000 ![] bcast_S_S3200000 (constantI S_ 32 0#32))) (addi x2 (broadcastInDim S3200000 ![] bcast_S_S3200000 (constantI S_ 32 100000#32))) x2)))))))

/-- The first layer's combination: messages plus the self-loop term plus the bias, clamped at zero. -/
def comb16 (agg h : FVec Ideal S100000x16 .f32) (d : FVec Ideal S100000 .f32) (b : FVec Ideal S16 .f32) : FVec Ideal S100000x16 .f32 :=
  maximumf (addf (addf agg (mulf h (broadcastInDim S100000x16 ![0, 1] bcast_S100000x1_S100000x16_0_1 (broadcastInDim S100000x1 ![0] bcast_S100000_S100000x1_0 d)))) (broadcastInDim S100000x16 ![0, 1] bcast_S1x16_S100000x16_0_1 (broadcastInDim S1x16 ![1] bcast_S16_S1x16_1 b))) (broadcastInDim S100000x16 ![] bcast_S_S100000x16 (constant (F := Ideal) S_ .f32 0x00000000#32))

/-- The second layer's combination: messages plus the self-loop term plus the bias. -/
def comb40 (agg h : FVec Ideal S100000x40 .f32) (d : FVec Ideal S100000 .f32) (b : FVec Ideal S40 .f32) : FVec Ideal S100000x40 .f32 :=
  addf (addf agg (mulf h (broadcastInDim S100000x40 ![0, 1] bcast_S100000x1_S100000x40_0_1 (broadcastInDim S100000x1 ![0] bcast_S100000_S100000x1_0 d)))) (broadcastInDim S100000x40 ![0, 1] bcast_S1x40_S100000x40_0_1 (broadcastInDim S1x40 ![1] bcast_S40_S1x40_1 b))

/-- The row-wise log-softmax. -/
def lsm (x : FVec Ideal S100000x40 .f32) : FVec Ideal S100000x40 .f32 :=
  subf (subf x (broadcastInDim S100000x40 ![0, 1] bcast_S100000x1_S100000x40_0_1 (broadcastInDim S100000x1 ![0] bcast_S100000_S100000x1_0 (maximumf (broadcastInDim S100000 ![] bcast_S_S100000 (constant (F := Ideal) S_ .f32 0xFF800000#32)) (Host.reduce FloatOps.maximumf x (constant (F := Ideal) S_ .f32 0xFF800000#32) reducesTo_S100000x40_S100000_d1 h_S_))))) (broadcastInDim S100000x40 ![0, 1] bcast_S100000x1_S100000x40_0_1 (Host.log (broadcastInDim S100000x1 ![0] bcast_S100000_S100000x1_0 (Host.reduceAdd (Host.exp (subf x (broadcastInDim S100000x40 ![0, 1] bcast_S100000x1_S100000x40_0_1 (broadcastInDim S100000x1 ![0] bcast_S100000_S100000x1_0 (maximumf (broadcastInDim S100000 ![] bcast_S_S100000 (constant (F := Ideal) S_ .f32 0xFF800000#32)) (Host.reduce FloatOps.maximumf x (constant (F := Ideal) S_ .f32 0xFF800000#32) reducesTo_S100000x40_S100000_d1 h_S_)))))) (constant (F := Ideal) S_ .f32 0x00000000#32) reducesTo_S100000x40_S100000_d1 h_S_))))

/-- The first projection x · W₁. -/
def dot16 (x : FVec Ideal S100000x512 .f32) (w : FVec Ideal S512x16 .f32) : FVec Ideal S100000x16 .f32 :=
  Host.dotGeneral dot_S100000x512_S512x16_S100000x16_1_0_0_1_n_n none x w

/-- The second projection h · W₂. -/
def dot40 (x : FVec Ideal S100000x16 .f32) (w : FVec Ideal S16x40 .f32) : FVec Ideal S100000x40 .f32 :=
  Host.dotGeneral dot_S100000x16_S16x40_S100000x40_1_0_0_1_n_n none x w

/-- The first layer. -/
def layer1 (x0 : FVec Ideal S100000x512 .f32) (x1 x2 : IVec S3200000 32) (x3 : FVec Ideal S3200000 .f32) (x4 : FVec Ideal S512x16 .f32) (x5 : FVec Ideal S16 .f32) : FVec Ideal S100000x16 .f32 :=
  comb16 (agg16 (dot16 x0 x4) x1 x2 x3) (dot16 x0 x4) (sqDinv x2 x3) x5

/-- The second layer. -/
def layer2 (h : FVec Ideal S100000x16 .f32) (x1 x2 : IVec S3200000 32) (x3 : FVec Ideal S3200000 .f32) (x6 : FVec Ideal S16x40 .f32) (x7 : FVec Ideal S40 .f32) : FVec Ideal S100000x40 .f32 :=
  comb40 (agg40 (dot40 h x6) x1 x2 x3) (dot40 h x6) (sqDinv x2 x3) x7

/-- The whole network. -/
def out (x0 : FVec Ideal S100000x512 .f32) (x1 x2 : IVec S3200000 32) (x3 : FVec Ideal S3200000 .f32) (x4 : FVec Ideal S512x16 .f32) (x5 : FVec Ideal S16 .f32)
    (x6 : FVec Ideal S16x40 .f32) (x7 : FVec Ideal S40 .f32) : FVec Ideal S100000x40 .f32 :=
  lsm (layer2 (layer1 x0 x1 x2 x3 x4 x5) x1 x2 x3 x6 x7)

end Cert.Gcn

end
-- ==== Proof.SpecEq.lean ====
/-
  The host stages are the same functions whichever program's records spell them: the two programs print the same
  operations with the same dimension records.
-/
import proofs.«122372_j50457275793466_1_alg».proof.Proof.Spec
import proofs.«122372_j50457275793466_1_alg».proof.Proof.SpecK

noncomputable section

namespace Cert.GcnK

open Idealize.ShloMosaic

theorem dinv_eq (x2 : IVec Cert.KernelIdeal.S3200000 32) (x3 : FVec Ideal Cert.KernelIdeal.S3200000 .f32) :
    dinv x2 x3 = Cert.Gcn.dinv x2 x3 := rfl

theorem sqDinv_eq (x2 : IVec Cert.KernelIdeal.S3200000 32) (x3 : FVec Ideal Cert.KernelIdeal.S3200000 .f32) :
    sqDinv x2 x3 = Cert.Gcn.sqDinv x2 x3 := rfl

theorem agg16_eq (h : FVec Ideal Cert.KernelIdeal.S100000x16 .f32) (x1 x2 : IVec Cert.KernelIdeal.S3200000 32) (x3 : FVec Ideal Cert.KernelIdeal.S3200000 .f32) :
    agg16 h x1 x2 x3 = Cert.Gcn.agg16 h x1 x2 x3 := rfl

theorem agg40_eq (h : FVec Ideal Cert.KernelIdeal.S100000x40 .f32) (x1 x2 : IVec Cert.KernelIdeal.S3200000 32) (x3 : FVec Ideal Cert.KernelIdeal.S3200000 .f32) :
    agg40 h x1 x2 x3 = Cert.Gcn.agg40 h x1 x2 x3 := rfl

end Cert.GcnK

end
-- ==== Proof.BridgeDot.lean ====
/-
  The host's two matrix products are the sums the two product launches compute: entry (i, j) is the sum over k of
  x[i, k] · w[k, j], whichever program forms it.
-/
import proofs.«122372_j50457275793466_1_alg».proof.Proof.Spec
import proofs.«122372_j50457275793466_1_alg».proof.Proof.ProjectIn
import proofs.«122372_j50457275793466_1_alg».proof.Proof.ProjectOut
import Idealize.ShloMosaic.Lib.Pipeline.Value
import Idealize.ShloMosaic.Lib.ValueIdx
import Idealize.ShloMosaic.PureOps.Ideal.Laws

set_option maxRecDepth 16384

noncomputable section

namespace Cert.Gcn.Bridge

open Idealize.ShloMosaic Idealize.ShloMosaic.ValueIdx
open Cert.ReferenceIdeal Cert.ReferenceIdeal.Gen

/-- The left operand of the host's product is read at the output's row, -/
theorem dot16_lhs_row (i : S100000x16.Idx) (r : dot_S100000x512_S512x16_S100000x16_1_0_0_1_n_n.contr.Idx) : (dot_S100000x512_S512x16_S100000x16_1_0_0_1_n_n.lhsIdx i r 0).val = (i 0).val := by
  unfold DotDims.lhsIdx
  rw [dif_neg (show ¬(0 : Fin S100000x512.rank) ∈ dot_S100000x512_S512x16_S100000x16_1_0_0_1_n_n.lhsBatch by decide), dif_pos (show (0 : Fin S100000x512.rank) ∈ dot_S100000x512_S512x16_S100000x16_1_0_0_1_n_n.lhsNonContracting by decide)]
  rfl
/-- and the right operand at the output's column. -/
theorem dot16_rhs_col (i : S100000x16.Idx) (r : dot_S100000x512_S512x16_S100000x16_1_0_0_1_n_n.contr.Idx) : (dot_S100000x512_S512x16_S100000x16_1_0_0_1_n_n.rhsIdx i r 1).val = (i 1).val := by
  unfold DotDims.rhsIdx
  rw [dif_neg (show ¬(1 : Fin S512x16.rank) ∈ dot_S100000x512_S512x16_S100000x16_1_0_0_1_n_n.rhsBatch by decide), dif_pos (show (1 : Fin S512x16.rank) ∈ dot_S100000x512_S512x16_S100000x16_1_0_0_1_n_n.rhsNonContracting by decide)]
  rfl

/-- The host's product, entry by entry, is the sum over the contracted axis that the banded launch computes. -/
theorem dot16_eq (x : FVec Ideal S100000x512 .f32) (w : FVec Ideal S512x16 .f32) :
    Cert.Gcn.dot16 x w = Cert.KernelIdeal.ProjectIn.G x w := by
  funext i
  unfold Cert.Gcn.dot16 Cert.KernelIdeal.ProjectIn.G
  simp only [Host.dotGeneral]
  rw [Ideal.dotGeneral_apply, ← Equiv.sum_comp (contrEquiv1 dot_S100000x512_S512x16_S100000x16_1_0_0_1_n_n 512 rfl rfl).symm]
  refine Finset.sum_congr rfl fun k _ => ?_
  have hk := contrEquiv1_symm_val dot_S100000x512_S512x16_S100000x16_1_0_0_1_n_n 512 rfl rfl k
  have el : dot_S100000x512_S512x16_S100000x16_1_0_0_1_n_n.lhsIdx i ((contrEquiv1 dot_S100000x512_S512x16_S100000x16_1_0_0_1_n_n 512 rfl rfl).symm k) = ix2 (i 0) k := funext fun a => Fin.ext (by
    match a with
    | ⟨0, _⟩ => exact dot16_lhs_row _ _
    | ⟨1, _⟩ => exact (dot_S100000x512_S512x16_S100000x16_1_0_0_1_n_n.lhsIdx_val_of_single rfl _ _).trans hk)
  have er : dot_S100000x512_S512x16_S100000x16_1_0_0_1_n_n.rhsIdx i ((contrEquiv1 dot_S100000x512_S512x16_S100000x16_1_0_0_1_n_n 512 rfl rfl).symm k) = ix2 k (i 1) := funext fun a => Fin.ext (by
    match a with
    | ⟨0, _⟩ => exact (dot_S100000x512_S512x16_S100000x16_1_0_0_1_n_n.rhsIdx_val_of_single rfl _ _).trans hk
    | ⟨1, _⟩ => exact dot16_rhs_col _ _)
  rw [el, er]
  rfl

/-- The left operand of the host's product is read at the output's row, -/
theorem dot40_lhs_row (i : S100000x40.Idx) (r : dot_S100000x16_S16x40_S100000x40_1_0_0_1_n_n.contr.Idx) : (dot_S100000x16_S16x40_S100000x40_1_0_0_1_n_n.lhsIdx i r 0).val = (i 0).val := by
  unfold DotDims.lhsIdx
  rw [dif_neg (show ¬(0 : Fin S100000x16.rank) ∈ dot_S100000x16_S16x40_S100000x40_1_0_0_1_n_n.lhsBatch by decide), dif_pos (show (0 : Fin S100000x16.rank) ∈ dot_S100000x16_S16x40_S100000x40_1_0_0_1_n_n.lhsNonContracting by decide)]
  rfl
/-- and the right operand at the output's column. -/
theorem dot40_rhs_col (i : S100000x40.Idx) (r : dot_S100000x16_S16x40_S100000x40_1_0_0_1_n_n.contr.Idx) : (dot_S100000x16_S16x40_S100000x40_1_0_0_1_n_n.rhsIdx i r 1).val = (i 1).val := by
  unfold DotDims.rhsIdx
  rw [dif_neg (show ¬(1 : Fin S16x40.rank) ∈ dot_S100000x16_S16x40_S100000x40_1_0_0_1_n_n.rhsBatch by decide), dif_pos (show (1 : Fin S16x40.rank) ∈ dot_S100000x16_S16x40_S100000x40_1_0_0_1_n_n.rhsNonContracting by decide)]
  rfl

/-- The host's product, entry by entry, is the sum over the contracted axis that the banded launch computes. -/
theorem dot40_eq (x : FVec Ideal S100000x16 .f32) (w : FVec Ideal S16x40 .f32) :
    Cert.Gcn.dot40 x w = Cert.KernelIdeal.ProjectOut.G x w := by
  funext i
  unfold Cert.Gcn.dot40 Cert.KernelIdeal.ProjectOut.G
  simp only [Host.dotGeneral]
  rw [Ideal.dotGeneral_apply, ← Equiv.sum_comp (contrEquiv1 dot_S100000x16_S16x40_S100000x40_1_0_0_1_n_n 16 rfl rfl).symm]
  refine Finset.sum_congr rfl fun k _ => ?_
  have hk := contrEquiv1_symm_val dot_S100000x16_S16x40_S100000x40_1_0_0_1_n_n 16 rfl rfl k
  have el : dot_S100000x16_S16x40_S100000x40_1_0_0_1_n_n.lhsIdx i ((contrEquiv1 dot_S100000x16_S16x40_S100000x40_1_0_0_1_n_n 16 rfl rfl).symm k) = ix2 (i 0) k := funext fun a => Fin.ext (by
    match a with
    | ⟨0, _⟩ => exact dot40_lhs_row _ _
    | ⟨1, _⟩ => exact (dot_S100000x16_S16x40_S100000x40_1_0_0_1_n_n.lhsIdx_val_of_single rfl _ _).trans hk)
  have er : dot_S100000x16_S16x40_S100000x40_1_0_0_1_n_n.rhsIdx i ((contrEquiv1 dot_S100000x16_S16x40_S100000x40_1_0_0_1_n_n 16 rfl rfl).symm k) = ix2 k (i 1) := funext fun a => Fin.ext (by
    match a with
    | ⟨0, _⟩ => exact (dot_S100000x16_S16x40_S100000x40_1_0_0_1_n_n.rhsIdx_val_of_single rfl _ _).trans hk
    | ⟨1, _⟩ => exact dot40_rhs_col _ _)
  rw [el, er]
  rfl

end Cert.Gcn.Bridge

end
-- ==== Proof.BridgeComb.lean ====
/-
  The host's combination of messages, self-loop term and bias is the one the combining launches compute.
-/
import proofs.«122372_j50457275793466_1_alg».proof.Proof.Spec
import proofs.«122372_j50457275793466_1_alg».proof.Proof.CombineRelu
import proofs.«122372_j50457275793466_1_alg».proof.Proof.CombineOut
import Idealize.ShloMosaic.Lib.Pipeline.Value
import Idealize.ShloMosaic.Lib.ValueIdx
import Idealize.ShloMosaic.PureOps.Ideal.Laws

set_option maxRecDepth 16384

noncomputable section

namespace Cert.Gcn.Bridge

open Idealize.ShloMosaic Idealize.ShloMosaic.ValueIdx
open Cert.ReferenceIdeal Cert.ReferenceIdeal.Gen

/-- The host's combination, entry by entry: the squared inverse degree is read at the entry's row and the bias at its
    column, whether they were spread over the array by broadcasting (the host) or re-laid as a column and a row and read
    by the banded launch. -/
theorem comb16_eq (agg h : FVec Ideal S100000x16 .f32) (d : FVec Ideal S100000 .f32) (b : FVec Ideal S16 .f32) :
    Cert.Gcn.comb16 agg h d b
      = Cert.KernelIdeal.CombineRelu.G agg h (shapeCast Cert.KernelIdeal.S100000x1 d Cert.KernelIdeal.Gen.shapeCasts_S100000_S100000x1)
          (shapeCast Cert.KernelIdeal.S1x16 b Cert.KernelIdeal.Gen.shapeCasts_S16_S1x16) := by
  funext i
  unfold Cert.Gcn.comb16 Cert.KernelIdeal.CombineRelu.G
  have e1 : broadcastInDim S100000x16 ![0, 1] bcast_S100000x1_S100000x16_0_1 (broadcastInDim S100000x1 ![0] bcast_S100000_S100000x1_0 d) i
      = shapeCast Cert.KernelIdeal.S100000x1 d Cert.KernelIdeal.Gen.shapeCasts_S100000_S100000x1 (ix2 (i 0) 0) := by
    refine (broadcastInDim_apply _ _ _ i (ix2 (i 0) 0) (fun a => by match a with | ⟨0, _⟩ => rfl | ⟨1, _⟩ => rfl)).trans ?_
    refine (broadcastInDim_apply _ _ d (ix2 (i 0) 0) (ix1 (i 0)) (fun a => by match a with | ⟨0, _⟩ => rfl)).trans ?_
    refine (shapeCast_apply d _ (ix2 (i 0) 0) (ix1 (i 0)) ?_).symm
    rw [Shape.rowMajor_val_one, Shape.rowMajor_val_two]
    show (i 0).val = (i 0).val * 1 + 0
    omega
  have e2 : broadcastInDim S100000x16 ![0, 1] bcast_S1x16_S100000x16_0_1 (broadcastInDim S1x16 ![1] bcast_S16_S1x16_1 b) i
      = shapeCast Cert.KernelIdeal.S1x16 b Cert.KernelIdeal.Gen.shapeCasts_S16_S1x16 (ix2 0 (i 1)) := by
    refine (broadcastInDim_apply _ _ _ i (ix2 0 (i 1)) (fun a => by match a with | ⟨0, _⟩ => rfl | ⟨1, _⟩ => rfl)).trans ?_
    refine (broadcastInDim_apply _ _ b (ix2 0 (i 1)) (ix1 (i 1)) (fun a => by match a with | ⟨0, _⟩ => rfl)).trans ?_
    refine (shapeCast_apply b _ (ix2 0 (i 1)) (ix1 (i 1)) ?_).symm
    rw [Shape.rowMajor_val_one, Shape.rowMajor_val_two]
    show (i 1).val = 0 * 16 + (i 1).val
    omega
  have e3 : broadcastInDim S100000x16 ![] bcast_S_S100000x16 (constant (F := Ideal) S_ .f32 0x00000000#32) i = Ideal.ofBits .f32 0x00000000#32 :=
    broadcastInDim_apply _ _ _ i ix0 (fun a => a.elim0)
  exact congrArg₂ max (congrArg₂ (· + ·) (congrArg (agg i + ·) (congrArg (h i * ·) e1)) e2) e3

/-- The host's combination, entry by entry: the squared inverse degree is read at the entry's row and the bias at its
    column, whether they were spread over the array by broadcasting (the host) or re-laid as a column and a row and read
    by the banded launch. -/
theorem comb40_eq (agg h : FVec Ideal S100000x40 .f32) (d : FVec Ideal S100000 .f32) (b : FVec Ideal S40 .f32) :
    Cert.Gcn.comb40 agg h d b
      = Cert.KernelIdeal.CombineOut.G agg h (shapeCast Cert.KernelIdeal.S100000x1 d Cert.KernelIdeal.Gen.shapeCasts_S100000_S100000x1)
          (shapeCast Cert.KernelIdeal.S1x40 b Cert.KernelIdeal.Gen.shapeCasts_S40_S1x40) := by
  funext i
  unfold Cert.Gcn.comb40 Cert.KernelIdeal.CombineOut.G
  have e1 : broadcastInDim S100000x40 ![0, 1] bcast_S100000x1_S100000x40_0_1 (broadcastInDim S100000x1 ![0] bcast_S100000_S100000x1_0 d) i
      = shapeCast Cert.KernelIdeal.S100000x1 d Cert.KernelIdeal.Gen.shapeCasts_S100000_S100000x1 (ix2 (i 0) 0) := by
    refine (broadcastInDim_apply _ _ _ i (ix2 (i 0) 0) (fun a => by match a with | ⟨0, _⟩ => rfl | ⟨1, _⟩ => rfl)).trans ?_
    refine (broadcastInDim_apply _ _ d (ix2 (i 0) 0) (ix1 (i 0)) (fun a => by match a with | ⟨0, _⟩ => rfl)).trans ?_
    refine (shapeCast_apply d _ (ix2 (i 0) 0) (ix1 (i 0)) ?_).symm
    rw [Shape.rowMajor_val_one, Shape.rowMajor_val_two]
    show (i 0).val = (i 0).val * 1 + 0
    omega
  have e2 : broadcastInDim S100000x40 ![0, 1] bcast_S1x40_S100000x40_0_1 (broadcastInDim S1x40 ![1] bcast_S40_S1x40_1 b) i
      = shapeCast Cert.KernelIdeal.S1x40 b Cert.KernelIdeal.Gen.shapeCasts_S40_S1x40 (ix2 0 (i 1)) := by
    refine (broadcastInDim_apply _ _ _ i (ix2 0 (i 1)) (fun a => by match a with | ⟨0, _⟩ => rfl | ⟨1, _⟩ => rfl)).trans ?_
    refine (broadcastInDim_apply _ _ b (ix2 0 (i 1)) (ix1 (i 1)) (fun a => by match a with | ⟨0, _⟩ => rfl)).trans ?_
    refine (shapeCast_apply b _ (ix2 0 (i 1)) (ix1 (i 1)) ?_).symm
    rw [Shape.rowMajor_val_one, Shape.rowMajor_val_two]
    show (i 1).val = 0 * 40 + (i 1).val
    omega
  exact congrArg₂ (· + ·) (congrArg (agg i + ·) (congrArg (h i * ·) e1)) e2

end Cert.Gcn.Bridge

end
-- ==== Proof.BridgeLsm.lean ====
/-
  The host's row-wise log-softmax is the one the last launch computes: the host folds max over each row from −∞ (and takes
  the larger of that and −∞ once more, which changes nothing), subtracts, exponentiates, sums from zero, takes the logarithm
  and subtracts again.
-/
import proofs.«122372_j50457275793466_1_alg».proof.Proof.Spec
import proofs.«122372_j50457275793466_1_alg».proof.Proof.LogSoftmax
import Idealize.ShloMosaic.Lib.Pipeline.Value
import Idealize.ShloMosaic.Lib.ValueIdx
import Idealize.ShloMosaic.PureOps.Ideal.Laws

set_option maxRecDepth 16384

noncomputable section

namespace Cert.Gcn.Bridge

open Idealize.ShloMosaic Idealize.ShloMosaic.ValueIdx
open Cert.ReferenceIdeal Cert.ReferenceIdeal.Gen

theorem red : S100000x40.Reduces [1] S100000 := by decide

/-- The entry of the array that a reduction along the rows reads for row r, column k. -/
theorem row_entry (r : Fin 100000) (k : Fin (S100000x40.size 1)) :
    red.lift (ix1 r) k = ix2 r (⟨k.val, k.isLt⟩ : Fin 40) := by
  funext c; apply Fin.ext
  show red.liftVal (ix1 r) k.val c = _
  unfold Shape.Reduces.liftVal
  match c with
  | ⟨0, _⟩ => rfl
  | ⟨1, _⟩ => rfl

theorem max_fn : (FloatOps.maximumf : Ideal .f32 → Ideal .f32 → Ideal .f32) = max := rfl

/-- The host's row maxima. -/
def hostMax (x : FVec Ideal S100000x40 .f32) : FVec Ideal S100000 .f32 :=
  maximumf (broadcastInDim S100000 ![] bcast_S_S100000 (constant (F := Ideal) S_ .f32 0xFF800000#32)) (Host.reduce FloatOps.maximumf x (constant (F := Ideal) S_ .f32 0xFF800000#32) reducesTo_S100000x40_S100000_d1 h_S_)

/-- The rows shifted by their maxima. -/
def hostShift (x : FVec Ideal S100000x40 .f32) : FVec Ideal S100000x40 .f32 :=
  subf x (broadcastInDim S100000x40 ![0, 1] bcast_S100000x1_S100000x40_0_1 (broadcastInDim S100000x1 ![0] bcast_S100000_S100000x1_0 (hostMax x)))

/-- The host's log-softmax in these stages. -/
theorem lsm_stages (x : FVec Ideal S100000x40 .f32) :
    Cert.Gcn.lsm x = subf (hostShift x) (broadcastInDim S100000x40 ![0, 1] bcast_S100000x1_S100000x40_0_1 (Host.log (broadcastInDim S100000x1 ![0] bcast_S100000_S100000x1_0
      (Host.reduceAdd (Host.exp (hostShift x)) (constant (F := Ideal) S_ .f32 0x00000000#32) reducesTo_S100000x40_S100000_d1 h_S_)))) := rfl

/-- The host's row maximum is the fold of max over the row. -/
theorem host_rowmax (x : FVec Ideal S100000x40 .f32) (r : Fin 100000) :
    hostMax x (ix1 r) = Cert.KernelIdeal.LogSoftmax.rowMax (fun k => x (ix2 r k)) := by
  unfold hostMax
  refine (maximumf_apply _ _ (ix1 r)).trans ?_
  have hc : broadcastInDim S100000 ![] bcast_S_S100000 (constant (F := Ideal) S_ .f32 0xFF800000#32) (ix1 r) = Ideal.ofBits .f32 0xFF800000#32 :=
    broadcastInDim_apply _ _ _ _ ix0 (fun a => a.elim0)
  have hr : Host.reduce FloatOps.maximumf x (constant (F := Ideal) S_ .f32 0xFF800000#32) reducesTo_S100000x40_S100000_d1 h_S_ (ix1 r)
      = Cert.KernelIdeal.LogSoftmax.rowMax (fun k => x (ix2 r k)) := by
    rw [max_fn, Host.reduce_eq_fold_single max x _ reducesTo_S100000x40_S100000_d1 red h_S_ (ix1 r)]
    have hf : (x ∘ red.lift (ix1 r)) = fun k : Fin (S100000x40.size 1) => x (ix2 r (⟨k.val, k.isLt⟩ : Fin 40)) :=
      funext fun k => congrArg x (row_entry r k)
    rw [hf]
    rfl
  rw [hc, hr]
  exact max_eq_right ((Finset.le_fold_max _).mpr (Or.inl le_rfl))

/-- A shifted entry. -/
theorem host_shift (x : FVec Ideal S100000x40 .f32) (r : Fin 100000) (q : Fin 40) :
    hostShift x (ix2 r q) = x (ix2 r q) - Cert.KernelIdeal.LogSoftmax.rowMax (fun k => x (ix2 r k)) := by
  unfold hostShift
  refine (subf_apply _ _ (ix2 r q)).trans (congrArg (x (ix2 r q) - ·) ?_)
  refine (broadcastInDim_apply _ _ _ (ix2 r q) (ix2 r 0) (fun a => by match a with | ⟨0, _⟩ => rfl | ⟨1, _⟩ => rfl)).trans ?_
  refine (broadcastInDim_apply _ _ _ (ix2 r 0) (ix1 r) (fun a => by match a with | ⟨0, _⟩ => rfl)).trans ?_
  exact host_rowmax x r

/-- The host's row sum from zero reads the sum over the row. -/
theorem host_rowsum (y : FVec Ideal S100000x40 .f32) (r : Fin 100000) :
    Host.reduceAdd y (constant (F := Ideal) S_ .f32 0x00000000#32) reducesTo_S100000x40_S100000_d1 h_S_ (ix1 r) = ∑ k : Fin 40, y (ix2 r k) := by
  simp only [Host.reduceAdd, Ideal.hostReduceAdd_def]
  rw [Ideal.hostReduceAdd_single reducesTo_S100000x40_S100000_d1 red]
  show Ideal.ofBits .f32 0x00000000#32 + _ = _
  rw [Ideal.ofBits_zero_f32, zero_add]
  exact Finset.sum_congr rfl fun k _ => congrArg y (row_entry r k)

theorem host_log_at {s : Shape} (v : FVec Ideal s .f32) (j : s.Idx) : Host.log v j = Ideal.log (v j) := rfl
theorem host_exp_at {s : Shape} (v : FVec Ideal s .f32) (j : s.Idx) : Host.exp v j = Ideal.exp (v j) := rfl

/-- The host's log-softmax, entry by entry. -/
theorem lsm_eq (x : FVec Ideal S100000x40 .f32) : Cert.Gcn.lsm x = Cert.KernelIdeal.LogSoftmax.G x := by
  funext i
  obtain ⟨r, q, rfl⟩ : ∃ (r : Fin 100000) (q : Fin 40), i = ix2 r q := ⟨i 0, i 1, eq_ix2 i⟩
  rw [lsm_stages]
  show _ = (x (ix2 r q) - Cert.KernelIdeal.LogSoftmax.rowMax (fun k => x (ix2 r k))) - Ideal.log (∑ k : Fin 40, Ideal.exp (x (ix2 r k) - Cert.KernelIdeal.LogSoftmax.rowMax (fun k => x (ix2 r k))))
  refine (subf_apply _ _ (ix2 r q)).trans ?_
  refine congrArg₂ (· - ·) (host_shift x r q) ?_
  refine (broadcastInDim_apply _ _ _ (ix2 r q) (ix2 r 0) (fun a => by match a with | ⟨0, _⟩ => rfl | ⟨1, _⟩ => rfl)).trans ?_
  refine (host_log_at _ (ix2 r 0)).trans (congrArg Ideal.log ?_)
  refine (broadcastInDim_apply _ _ _ (ix2 r 0) (ix1 r) (fun a => by match a with | ⟨0, _⟩ => rfl)).trans ?_
  refine (host_rowsum _ r).trans ?_
  refine Finset.sum_congr rfl fun k _ => ?_
  exact (host_exp_at _ (ix2 r k)).trans (congrArg Ideal.exp (host_shift x r k))

end Cert.Gcn.Bridge

end
-- ==== Proof.KernelValue.lean ====
/-
  The idealized kernel's result is the network of Spec.lean applied to its arguments.  The run passes through eleven
  boundaries; at each launch's exit the launch's result array holds the launch's function of its operand arrays (the five
  launch modules), and across each stretch of host operations every buffer holds its operation's result of the operands'
  buffers, which are the specification's host stages.  Composing from the result back to the arguments gives the network.
-/
import proofs.«122372_j50457275793466_1_alg».proof.Proof.ProjectIn
import proofs.«122372_j50457275793466_1_alg».proof.Proof.CombineRelu
import proofs.«122372_j50457275793466_1_alg».proof.Proof.ProjectOut
import proofs.«122372_j50457275793466_1_alg».proof.Proof.CombineOut
import proofs.«122372_j50457275793466_1_alg».proof.Proof.LogSoftmax
import proofs.«122372_j50457275793466_1_alg».proof.Proof.SpecK
import proofs.«122372_j50457275793466_1_alg».proof.Proof.SpecEq
import proofs.«122372_j50457275793466_1_alg».proof.Proof.BridgeDot
import proofs.«122372_j50457275793466_1_alg».proof.Proof.BridgeComb
import proofs.«122372_j50457275793466_1_alg».proof.Proof.BridgeLsm
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen

/-! ## The host operations between the first product and the first combination -/

set_option maxHeartbeats 2000000 in
/-- The aggregated messages of the first layer. -/
theorem mid1_agg (V : Valuation τ sig (Elt Ideal)) :
    after hostOps1_2 (after hostOps1_1 (after hostOps1 V)) (Proc.devRef .tc main_v38) = Cert.GcnK.agg16 (V (Proc.devRef .tc main_v0)) (V (Proc.devRef .tc main_arg1)) (V (Proc.devRef .tc main_arg2)) (V (Proc.devRef .tc main_arg3)) := by
  dsimp only [hostOps1, hostOps1_1, hostOps1_2]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cast_eq, id_eq]
  try rfl

set_option maxHeartbeats 2000000 in
/-- The squared inverse degree, re-laid as a column. -/
theorem mid1_sq (V : Valuation τ sig (Elt Ideal)) :
    after hostOps1_2 (after hostOps1_1 (after hostOps1 V)) (Proc.devRef .tc main_v40) = shapeCast S100000x1 (Cert.GcnK.sqDinv (V (Proc.devRef .tc main_arg2)) (V (Proc.devRef .tc main_arg3))) Cert.KernelIdeal.Gen.shapeCasts_S100000_S100000x1 := by
  dsimp only [hostOps1, hostOps1_1, hostOps1_2]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cast_eq, id_eq]
  try rfl

set_option maxHeartbeats 2000000 in
/-- The first bias, re-laid as a row. -/
theorem mid1_bias (V : Valuation τ sig (Elt Ideal)) :
    after hostOps1_2 (after hostOps1_1 (after hostOps1 V)) (Proc.devRef .tc main_v41) = shapeCast S1x16 (V (Proc.devRef .tc main_arg5)) Cert.KernelIdeal.Gen.shapeCasts_S16_S1x16 := by
  dsimp only [hostOps1, hostOps1_1, hostOps1_2]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cast_eq, id_eq]
  try rfl

set_option maxHeartbeats 2000000 in
/-- These operations leave this buffer as it was. -/
theorem mid1_keep_v0 (V : Valuation τ sig (Elt Ideal)) :
    after hostOps1_2 (after hostOps1_1 (after hostOps1 V)) (Proc.devRef .tc main_v0) = (V (Proc.devRef .tc main_v0)) := by
  dsimp only [hostOps1, hostOps1_1, hostOps1_2]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cast_eq, id_eq]
  try rfl
set_option maxHeartbeats 2000000 in
/-- These operations leave this buffer as it was. -/
theorem mid1_keep_arg1 (V : Valuation τ sig (Elt Ideal)) :
    after hostOps1_2 (after hostOps1_1 (after hostOps1 V)) (Proc.devRef .tc main_arg1) = (V (Proc.devRef .tc main_arg1)) := by
  dsimp only [hostOps1, hostOps1_1, hostOps1_2]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cast_eq, id_eq]
  try rfl
set_option maxHeartbeats 2000000 in
/-- These operations leave this buffer as it was. -/
theorem mid1_keep_arg2 (V : Valuation τ sig (Elt Ideal)) :
    after hostOps1_2 (after hostOps1_1 (after hostOps1 V)) (Proc.devRef .tc main_arg2) = (V (Proc.devRef .tc main_arg2)) := by
  dsimp only [hostOps1, hostOps1_1, hostOps1_2]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cast_eq, id_eq]
  try rfl
set_option maxHeartbeats 2000000 in
/-- These operations leave this buffer as it was. -/
theorem mid1_keep_arg3 (V : Valuation τ sig (Elt Ideal)) :
    after hostOps1_2 (after hostOps1_1 (after hostOps1 V)) (Proc.devRef .tc main_arg3) = (V (Proc.devRef .tc main_arg3)) := by
  dsimp only [hostOps1, hostOps1_1, hostOps1_2]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cast_eq, id_eq]
  try rfl
set_option maxHeartbeats 2000000 in
/-- These operations leave this buffer as it was. -/
theorem mid1_keep_arg6 (V : Valuation τ sig (Elt Ideal)) :
    after hostOps1_2 (after hostOps1_1 (after hostOps1 V)) (Proc.devRef .tc main_arg6) = (V (Proc.devRef .tc main_arg6)) := by
  dsimp only [hostOps1, hostOps1_1, hostOps1_2]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cast_eq, id_eq]
  try rfl
set_option maxHeartbeats 2000000 in
/-- These operations leave this buffer as it was. -/
theorem mid1_keep_arg7 (V : Valuation τ sig (Elt Ideal)) :
    after hostOps1_2 (after hostOps1_1 (after hostOps1 V)) (Proc.devRef .tc main_arg7) = (V (Proc.devRef .tc main_arg7)) := by
  dsimp only [hostOps1, hostOps1_1, hostOps1_2]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cast_eq, id_eq]
  try rfl

/-! ## The host operations between the second product and the second combination -/

set_option maxHeartbeats 2000000 in
/-- The aggregated messages of the second layer. -/
theorem mid2_agg (V : Valuation τ sig (Elt Ideal)) :
    after hostOps3_2 (after hostOps3_1 (after hostOps3 V)) (Proc.devRef .tc main_v81) = Cert.GcnK.agg40 (V (Proc.devRef .tc main_v43)) (V (Proc.devRef .tc main_arg1)) (V (Proc.devRef .tc main_arg2)) (V (Proc.devRef .tc main_arg3)) := by
  dsimp only [hostOps3, hostOps3_1, hostOps3_2]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cast_eq, id_eq]
  try rfl

set_option maxHeartbeats 2000000 in
/-- The squared inverse degree, re-laid as a column. -/
theorem mid2_sq (V : Valuation τ sig (Elt Ideal)) :
    after hostOps3_2 (after hostOps3_1 (after hostOps3 V)) (Proc.devRef .tc main_v83) = shapeCast S100000x1 (Cert.GcnK.sqDinv (V (Proc.devRef .tc main_arg2)) (V (Proc.devRef .tc main_arg3))) Cert.KernelIdeal.Gen.shapeCasts_S100000_S100000x1 := by
  dsimp only [hostOps3, hostOps3_1, hostOps3_2]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cast_eq, id_eq]
  try rfl

set_option maxHeartbeats 2000000 in
/-- The second bias, re-laid as a row. -/
theorem mid2_bias (V : Valuation τ sig (Elt Ideal)) :
    after hostOps3_2 (after hostOps3_1 (after hostOps3 V)) (Proc.devRef .tc main_v84) = shapeCast S1x40 (V (Proc.devRef .tc main_arg7)) Cert.KernelIdeal.Gen.shapeCasts_S40_S1x40 := by
  dsimp only [hostOps3, hostOps3_1, hostOps3_2]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cast_eq, id_eq]
  try rfl

set_option maxHeartbeats 2000000 in
/-- These operations leave this buffer as it was. -/
theorem mid2_keep_v43 (V : Valuation τ sig (Elt Ideal)) :
    after hostOps3_2 (after hostOps3_1 (after hostOps3 V)) (Proc.devRef .tc main_v43) = (V (Proc.devRef .tc main_v43)) := by
  dsimp only [hostOps3, hostOps3_1, hostOps3_2]
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cast_eq, id_eq]
  try rfl

/-! ## The boundaries, from the arguments to the result -/

section
variable (m : (ℓ : Loc nD τ sig) → Buf (Elt Ideal) ℓ) (ρ : Dev nD → PrngReg) (c : Dev nD)

/-- After the first product launch: its result array holds the first projection; every other buffer is as launched. -/
theorem at1_v0 : V1 m ρ c main_v0 = Cert.KernelIdeal.ProjectIn.G (m ((c.tc : Thread nD τ).loc main_arg0)) (m ((c.tc : Thread nD τ).loc main_arg4)) :=
  (W1_arr m ρ c 2).trans (Cert.KernelIdeal.ProjectIn.final (V0 m ρ) c)
theorem at1_arg1 : V1 m ρ c main_arg1 = (m ((c.tc : Thread nD τ).loc main_arg1)) := W1_of_ne m ρ c main_arg1 (by decide)
theorem at1_arg2 : V1 m ρ c main_arg2 = (m ((c.tc : Thread nD τ).loc main_arg2)) := W1_of_ne m ρ c main_arg2 (by decide)
theorem at1_arg3 : V1 m ρ c main_arg3 = (m ((c.tc : Thread nD τ).loc main_arg3)) := W1_of_ne m ρ c main_arg3 (by decide)
theorem at1_arg5 : V1 m ρ c main_arg5 = (m ((c.tc : Thread nD τ).loc main_arg5)) := W1_of_ne m ρ c main_arg5 (by decide)
theorem at1_arg6 : V1 m ρ c main_arg6 = (m ((c.tc : Thread nD τ).loc main_arg6)) := W1_of_ne m ρ c main_arg6 (by decide)
theorem at1_arg7 : V1 m ρ c main_arg7 = (m ((c.tc : Thread nD τ).loc main_arg7)) := W1_of_ne m ρ c main_arg7 (by decide)

/-- Before the first combining launch. -/
theorem at4_agg : V4 m ρ c main_v38 = Cert.GcnK.agg16 (V1 m ρ c main_v0) (V1 m ρ c main_arg1) (V1 m ρ c main_arg2) (V1 m ρ c main_arg3) := mid1_agg (W1 m ρ c)
theorem at4_sq : V4 m ρ c main_v40 = shapeCast S100000x1 (Cert.GcnK.sqDinv (V1 m ρ c main_arg2) (V1 m ρ c main_arg3)) Cert.KernelIdeal.Gen.shapeCasts_S100000_S100000x1 := mid1_sq (W1 m ρ c)
theorem at4_bias : V4 m ρ c main_v41 = shapeCast S1x16 (V1 m ρ c main_arg5) Cert.KernelIdeal.Gen.shapeCasts_S16_S1x16 := mid1_bias (W1 m ρ c)
theorem at4_v0 : V4 m ρ c main_v0 = V1 m ρ c main_v0 := mid1_keep_v0 (W1 m ρ c)
theorem at4_arg1 : V4 m ρ c main_arg1 = V1 m ρ c main_arg1 := mid1_keep_arg1 (W1 m ρ c)
theorem at4_arg2 : V4 m ρ c main_arg2 = V1 m ρ c main_arg2 := mid1_keep_arg2 (W1 m ρ c)
theorem at4_arg3 : V4 m ρ c main_arg3 = V1 m ρ c main_arg3 := mid1_keep_arg3 (W1 m ρ c)
theorem at4_arg6 : V4 m ρ c main_arg6 = V1 m ρ c main_arg6 := mid1_keep_arg6 (W1 m ρ c)
theorem at4_arg7 : V4 m ρ c main_arg7 = V1 m ρ c main_arg7 := mid1_keep_arg7 (W1 m ρ c)

/-- After the first combining launch. -/
theorem at5_v42 : V5 m ρ c main_v42 = Cert.KernelIdeal.CombineRelu.G (V4 m ρ c main_v38) (V4 m ρ c main_v0) (V4 m ρ c main_v40) (V4 m ρ c main_v41) :=
  (W5_arr m ρ c 4).trans (Cert.KernelIdeal.CombineRelu.final (V4 m ρ) c)
theorem at5_arg1 : V5 m ρ c main_arg1 = V4 m ρ c main_arg1 := W5_of_ne m ρ c main_arg1 (by decide)
theorem at5_arg2 : V5 m ρ c main_arg2 = V4 m ρ c main_arg2 := W5_of_ne m ρ c main_arg2 (by decide)
theorem at5_arg3 : V5 m ρ c main_arg3 = V4 m ρ c main_arg3 := W5_of_ne m ρ c main_arg3 (by decide)
theorem at5_arg6 : V5 m ρ c main_arg6 = V4 m ρ c main_arg6 := W5_of_ne m ρ c main_arg6 (by decide)
theorem at5_arg7 : V5 m ρ c main_arg7 = V4 m ρ c main_arg7 := W5_of_ne m ρ c main_arg7 (by decide)

/-- After the second product launch. -/
theorem at6_v43 : V6 m ρ c main_v43 = Cert.KernelIdeal.ProjectOut.G (V5 m ρ c main_v42) (V5 m ρ c main_arg6) :=
  (W6_arr m ρ c 2).trans (Cert.KernelIdeal.ProjectOut.final (V5 m ρ) c)
theorem at6_arg1 : V6 m ρ c main_arg1 = V5 m ρ c main_arg1 := W6_of_ne m ρ c main_arg1 (by decide)
theorem at6_arg2 : V6 m ρ c main_arg2 = V5 m ρ c main_arg2 := W6_of_ne m ρ c main_arg2 (by decide)
theorem at6_arg3 : V6 m ρ c main_arg3 = V5 m ρ c main_arg3 := W6_of_ne m ρ c main_arg3 (by decide)
theorem at6_arg7 : V6 m ρ c main_arg7 = V5 m ρ c main_arg7 := W6_of_ne m ρ c main_arg7 (by decide)

/-- Before the second combining launch. -/
theorem at9_agg : V9 m ρ c main_v81 = Cert.GcnK.agg40 (V6 m ρ c main_v43) (V6 m ρ c main_arg1) (V6 m ρ c main_arg2) (V6 m ρ c main_arg3) := mid2_agg (W6 m ρ c)
theorem at9_sq : V9 m ρ c main_v83 = shapeCast S100000x1 (Cert.GcnK.sqDinv (V6 m ρ c main_arg2) (V6 m ρ c main_arg3)) Cert.KernelIdeal.Gen.shapeCasts_S100000_S100000x1 := mid2_sq (W6 m ρ c)
theorem at9_bias : V9 m ρ c main_v84 = shapeCast S1x40 (V6 m ρ c main_arg7) Cert.KernelIdeal.Gen.shapeCasts_S40_S1x40 := mid2_bias (W6 m ρ c)
theorem at9_v43 : V9 m ρ c main_v43 = V6 m ρ c main_v43 := mid2_keep_v43 (W6 m ρ c)

/-- After the second combining launch. -/
theorem at10_v85 : V10 m ρ c main_v85 = Cert.KernelIdeal.CombineOut.G (V9 m ρ c main_v81) (V9 m ρ c main_v43) (V9 m ρ c main_v83) (V9 m ρ c main_v84) :=
  (W10_arr m ρ c 4).trans (Cert.KernelIdeal.CombineOut.final (V9 m ρ) c)

/-- After the last launch. -/
theorem at11_v86 : W11 m ρ c (Proc.devRef .tc main_v86) = Cert.KernelIdeal.LogSoftmax.G (V10 m ρ c main_v85) :=
  (W11_arr m ρ c 1).trans (Cert.KernelIdeal.LogSoftmax.final (V10 m ρ) c)

set_option maxHeartbeats 8000000 in
/-- The result buffer at the end of the run holds the network of the argument buffers as launched. -/
theorem result_eq : W11 m ρ c (Proc.devRef .tc main_v86)
    = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [at11_v86, at10_v85, at9_agg, at9_v43, at9_sq, at9_bias, at6_v43, at6_arg1, at6_arg2, at6_arg3, at6_arg7,
    at5_v42, at5_arg1, at5_arg2, at5_arg3, at5_arg6, at5_arg7, at4_agg, at4_v0, at4_sq, at4_bias,
    at4_arg1, at4_arg2, at4_arg3, at4_arg6, at4_arg7, at1_v0, at1_arg1, at1_arg2, at1_arg3, at1_arg5, at1_arg6, at1_arg7]
  rw [Cert.GcnK.agg16_eq, Cert.GcnK.agg40_eq, Cert.GcnK.sqDinv_eq]
  rw [← Cert.Gcn.Bridge.dot16_eq, ← Cert.Gcn.Bridge.comb16_eq, ← Cert.Gcn.Bridge.dot40_eq, ← Cert.Gcn.Bridge.comb40_eq, ← Cert.Gcn.Bridge.lsm_eq]
  rfl

end

end Cert.KernelIdeal.Whole

end
-- ==== Proof.ReferenceValue.lean ====
/-
  The reference's result is the network of Spec.lean applied to its arguments: its @main is a straight line of host
  operations, each buffer ends holding its operation's result of the operands' buffers, and composing these from the
  result back to the arguments gives the stages of the specification one after the other.
-/
import proofs.«122372_j50457275793466_1_alg».proof.Proof.ReferenceRun
import proofs.«122372_j50457275793466_1_alg».proof.Proof.Spec

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

set_option maxRecDepth 65536 in
set_option maxHeartbeats 8000000 in
/-- From any contents of the buffers, the result buffer after @main's operations holds the network of the argument buffers. -/
theorem result_eq (V : Valuation τ sig (Elt Ideal)) :
    after (ops (F := Ideal)) V (Proc.devRef .tc main_v95)
      = Cert.Gcn.out (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cast_eq, id_eq]
  rfl

end Cert.ReferenceIdeal.RefValue

end
-- ==== Proof.lean ====
/-
  The certificate of a two-layer graph convolution: a Pallas program of five launches (two banded matrix products, two
  banded combinations of aggregated messages, self-loop term and bias, and a banded row-wise log-softmax) among host
  operations (the degree normalisation and the gather / scatter-add aggregation over the edges), against the same network
  written with host operations only.

  Frames: the kernel's two frames are the generated ones; the reference's is its run with the result dropped.
  The idealization rewrote nothing, so the sanctioned-idealization conjunct is trivial.
  Equal results at the extended reals: both programs' result arrays are the network `Cert.Gcn.out` of the argument
  arrays.  On the kernel's side each launch leaves in its result array one whole-array function of its operand arrays
  (the sum over the contracted axis; the entry-wise combination; the row-wise log-softmax) and the host operations in
  between are the reference's own.  On the reference's side the host's matrix products, broadcasts and row reductions,
  read entry by entry, are those same functions.  No algebraic law is needed beyond reading both sides at an index, and the
  finiteness precondition is never opened.
-/
import proofs.«122372_j50457275793466_1_alg».proof.Defs
import proofs.«122372_j50457275793466_1_alg».proof.Proof.Gen.Kernel
import proofs.«122372_j50457275793466_1_alg».proof.Proof.Gen.Kernel.Frame
import proofs.«122372_j50457275793466_1_alg».proof.Proof.Gen.KernelIdeal
import proofs.«122372_j50457275793466_1_alg».proof.Proof.Gen.KernelIdeal.Frame
import proofs.«122372_j50457275793466_1_alg».proof.Proof.Gen.ReferenceIdeal
import proofs.«122372_j50457275793466_1_alg».proof.Proof.Gen.Pre_finite_inputs
import proofs.«122372_j50457275793466_1_alg».proof.Proof.RunResult
import proofs.«122372_j50457275793466_1_alg».proof.Proof.KernelValue
import proofs.«122372_j50457275793466_1_alg».proof.Proof.ReferenceRun
import proofs.«122372_j50457275793466_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the network of the (agreeing) argument arrays in their result arrays. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.result_eq m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.RefValue.result_eq _).trans ?_
    obtain ⟨e0, e1, e2, e3, e4, e5, e6, e7⟩ := hagree c
    exact congr (congr (congr (congr (congr (congr (congr (congrArg Cert.Gcn.out e0) e1) e2) e3) e4) e5) e6) e7

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
